-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_
  bcast_S_S16x11008 : S_.BroadcastsInDim S16x11008 (![] : Fin 0 → Fin S16x11008.rank)
  reducesTo_S16x11008_S_d0_1 : S16x11008.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S11008x16 .f32) (main_arg8 : FVec F S16x11008 .f32) (main_arg9 : FVec F S4096x16 .f32) (main_v33 : IVec S_ 1) : IVec S_ 1 :=
  let main_v34 : FVec F S11008x16 .f32 := Host.absf main_arg7
  let main_cst_12 : FVec F S_ .f32 := constant S_ .f32 0x7F800000#32
  let main_v35 : FVec F S11008x16 .f32 := broadcastInDim S11008x16 ![] bcast_S_S11008x16 main_cst_12
  let main_v36 : IVec S11008x16 1 := cmpf .olt main_v34 main_v35
  let main_c_13 : IVec S_ 1 := constantI S_ 1 1#1
  let main_v37 : IVec S_ 1 := (fun x v => Host.reduce IntOp.andi x v reducesTo_S11008x16_S_d0_1 h_S_) main_v36 main_c_13
  let main_v38 : IVec S_ 1 := andi main_v33 main_v37
  let main_v39 : FVec F S16x11008 .f32 := Host.absf main_arg8
  let main_cst_14 : FVec F S_ .f32 := constant S_ .f32 0x7F800000#32
  let main_v40 : FVec F S16x11008 .f32 := broadcastInDim S16x11008 ![] bcast_S_S16x11008 main_cst_14
  let main_v41 : IVec S16x11008 1 := cmpf .olt main_v39 main_v40
  let main_c_15 : IVec S_ 1 := constantI S_ 1 1#1
  let main_v42 : IVec S_ 1 := (fun x v => Host.reduce IntOp.andi x v reducesTo_S16x11008_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S11008x16 .f32 := Host.absf main_arg5
  let main_cst_8 : FVec F S_ .f32 := constant S_ .f32 0x7F800000#32
  let main_v25 : FVec F S11008x16 .f32 := broadcastInDim S11008x16 ![] bcast_S_S11008x16 main_cst_8
  let main_v26 : IVec S11008x16 1 := cmpf .olt main_v24 main_v25
  let main_c_9 : IVec S_ 1 := constantI S_ 1 1#1
  let main_v27 : IVec S_ 1 := (fun x v => Host.reduce IntOp.andi x v reducesTo_S11008x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x2048x4096 .f32) (main_arg1 : FVec F S11008x4096 .f32) (main_arg2 : FVec F S11008x4096 .f32) (main_arg3 : FVec F S4096x11008 .f32) (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_arg7 main_arg8 main_arg9 main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S4096x4096 : Shape := ⟨2, ![4096, 4096]⟩
abbrev S512x4096 : Shape := ⟨2, ![512, 4096]⟩
abbrev S256x4096 : Shape := ⟨2, ![256, 4096]⟩
abbrev S512x16 : Shape := ⟨2, ![512, 16]⟩
abbrev S16x256 : Shape := ⟨2, ![16, 256]⟩
abbrev S512x256 : Shape := ⟨2, ![512, 256]⟩
abbrev S4096x256 : Shape := ⟨2, ![4096, 256]⟩

abbrev nBuf : Space → Nat
  | .hbm => 31
  | .vmem => 26
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S4096x4096, .f32⟩
  | .hbm, ⟨11, _⟩ => ⟨S4096x4096, .bf16⟩
  | .hbm, ⟨12, _⟩ => ⟨S11008x4096, .bf16⟩
  | .hbm, ⟨13, _⟩ => ⟨S11008x4096, .bf16⟩
  | .hbm, ⟨14, _⟩ => ⟨S4096x11008, .bf16⟩
  | .hbm, ⟨15, _⟩ => ⟨S16x4096, .bf16⟩
  | .hbm, ⟨16, _⟩ => ⟨S16x4096, .bf16⟩
  | .hbm, ⟨17, _⟩ => ⟨S16x11008, .bf16⟩
  | .hbm, ⟨18, _⟩ => ⟨S16x11008, .f32⟩
  | .hbm, ⟨19, _⟩ => ⟨S16x11008, .bf16⟩
  | .hbm, ⟨20, _⟩ => ⟨S16x11008, .f32⟩
  | .hbm, ⟨21, _⟩ => ⟨S16x11008, .bf16⟩
  | .hbm, ⟨22, _⟩ => ⟨S16x4096, .f32⟩
  | .hbm, ⟨23, _⟩ => ⟨S16x4096, .bf16⟩
  | .hbm, ⟨24, _⟩ => ⟨S4096x16, .f32⟩
  | .hbm, ⟨25, _⟩ => ⟨S4096x16, .bf16⟩
  | .hbm, ⟨26, _⟩ => ⟨S4096x16, .f32⟩
  | .hbm, ⟨27, _⟩ => ⟨S4096x16, .bf16⟩
  | .hbm, ⟨28, _⟩ => ⟨S4096x11008, .bf16⟩
  | .hbm, ⟨29, _⟩ => ⟨S4096x4096, .f32⟩
  | .hbm, ⟨30, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S512x16, .bf16⟩
  | .local _ .vmem, ⟨7, _⟩ => ⟨S512x16, .bf16⟩
  | .local _ .vmem, ⟨8, _⟩ => ⟨S512x16, .bf16⟩
  | .local _ .vmem, ⟨9, _⟩ => ⟨S512x16, .bf16⟩
  | .local _ .vmem, ⟨10, _⟩ => ⟨S16x256, .bf16⟩
  | .local _ .vmem, ⟨11, _⟩ => ⟨S16x256, .bf16⟩
  | .local _ .vmem, ⟨12, _⟩ => ⟨S16x256, .bf16⟩
  | .local _ .vmem, ⟨13, _⟩ => ⟨S16x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S4096x256, .bf16⟩
  | .local _ .vmem, ⟨19, _⟩ => ⟨S4096x256, .bf16⟩
  | .local _ .vmem, ⟨20, _⟩ => ⟨S16x256, .bf16⟩
  | .local _ .vmem, ⟨21, _⟩ => ⟨S16x256, .bf16⟩
  | .local _ .vmem, ⟨22, _⟩ => ⟨S16x4096, .bf16⟩
  | .local _ .vmem, ⟨23, _⟩ => ⟨S512x4096, .f32⟩
  | .local _ .vmem, ⟨24, _⟩ => ⟨S512x4096, .f32⟩
  | .local _ .vmem, ⟨25, _⟩ => ⟨S512x16, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S16x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S2x2048x4096_S4096x4096 : S2x2048x4096.ShapeCasts S4096x4096
  bitsLt_bf16_f32 : FTy.bits .bf16 < FTy.bits .f32
  transposes_S11008x16_S16x11008_1_0 : S11008x16.Transposes [1, 0] S16x11008
  transposes_S4096x16_S16x4096_1_0 : S4096x16.Transposes [1, 0] S16x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  shapeCasts_S4096x4096_S2x2048x4096 : S4096x4096.ShapeCasts S2x2048x4096
  dot_S4096x4096_S16x4096_S4096x16_1_1_0_0_n_n_wf : DotDims.WF S4096x4096 S16x4096 S4096x16 [1] [1] [0] [0] [] []
  dot_S512x4096_S256x4096_S512x256_1_1_0_0_n_n_wf : DotDims.WF S512x4096 S256x4096 S512x256 [1] [1] [0] [0] [] []
  dot_S512x16_S16x256_S512x256_1_0_0_1_n_n_wf : DotDims.WF S512x16 S16x256 S512x256 [1] [0] [0] [1] [] []
  dot_S512x256_S4096x256_S512x4096_1_1_0_0_n_n_wf : DotDims.WF S512x256 S4096x256 S512x4096 [1] [1] [0] [0] [] []
  dot_S512x256_S16x256_S512x16_1_1_0_0_n_n_wf : DotDims.WF S512x256 S16x256 S512x16 [1] [1] [0] [0] [] []
  dot_S512x16_S16x4096_S512x4096_1_0_0_1_n_n_wf : DotDims.WF S512x16 S16x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .bf16 = 32 ∨ (Rect.block (s := S4096x16) S512x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S4096x16.size a
  hwx0_4 : ∀ i : grid0.Coords, EltTy.bits .bf16 = 32 ∨ (Rect.block (s := S4096x16) S512x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x11008.size a
  hwx0_5 : ∀ i : grid0.Coords, EltTy.bits .bf16 = 32 ∨ (Rect.block (s := S16x11008) S16x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x11008.size a
  hwx0_6 : ∀ i : grid0.Coords, EltTy.bits .bf16 = 32 ∨ (Rect.block (s := S16x11008) S16x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x11008.size a
  hwx0_7 : ∀ i : grid0.Coords, EltTy.bits .bf16 = 32 ∨ (Rect.block (s := S4096x11008) S512x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x11008.size a
  hwx1_0 : ∀ i : grid1.Coords, EltTy.bits .bf16 = 32 ∨ (Rect.block (s := S4096x11008) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .bf16 = 32 ∨ (Rect.block (s := S4096x11008) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x11008.size a
  hwx1_2 : ∀ i : grid1.Coords, EltTy.bits .bf16 = 32 ∨ (Rect.block (s := S16x11008) S16x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x4096.size a ≤ S16x4096.size a
  hwx1_3 : ∀ i : grid1.Coords, EltTy.bits .bf16 = 32 ∨ (Rect.block (s := S16x4096) S16x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .f32 = 32 ∨ (Rect.block (s := S4096x4096) S512x4096.size (cc1_transform_4 i) (hinb1_4 i)).WholeWords (EltTy.packing .f32)

variable [Facts₀]

def dot_S4096x4096_S16x4096_S4096x16_1_1_0_0_n_n : DotDims S4096x4096 S16x4096 S4096x16 where
  lhsContracting := [1]
  rhsContracting := [1]
  lhsNonContracting := [0]
  rhsNonContracting := [0]
  lhsBatch := []
  rhsBatch := []
  wf := dot_S4096x4096_S16x4096_S4096x16_1_1_0_0_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x16_S16x256_S512x256_1_0_0_1_n_n : DotDims S512x16 S16x256 S512x256 where
  lhsContracting := [1]
  rhsContracting := [0]
  lhsNonContracting := [0]
  rhsNonContracting := [1]
  lhsBatch := []
  rhsBatch := []
  wf := dot_S512x16_S16x256_S512x256_1_0_0_1_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x256_S16x256_S512x16_1_1_0_0_n_n : DotDims S512x256 S16x256 S512x16 where
  lhsContracting := [1]
  rhsContracting := [1]
  lhsNonContracting := [0]
  rhsNonContracting := [0]
  lhsBatch := []
  rhsBatch := []
  wf := dot_S512x256_S16x256_S512x16_1_1_0_0_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S16x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S16x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S16x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S2x2048x11008 : Shape := ⟨3, ![2, 2048, 11008]⟩
abbrev S2x2048x16 : Shape := ⟨3, ![2, 2048, 16]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S2x2048x11008, .f32⟩
  | .hbm, ⟨11, _⟩ => ⟨S2x2048x16, .f32⟩
  | .hbm, ⟨12, _⟩ => ⟨S2x2048x11008, .f32⟩
  | .hbm, ⟨13, _⟩ => ⟨S_, .f32⟩
  | .hbm, ⟨14, _⟩ => ⟨S2x2048x11008, .f32⟩
  | .hbm, ⟨15, _⟩ => ⟨S2x2048x11008, .f32⟩
  | .hbm, ⟨16, _⟩ => ⟨S2x2048x11008, .f32⟩
  | .hbm, ⟨17, _⟩ => ⟨S2x2048x11008, .f32⟩
  | .hbm, ⟨18, _⟩ => ⟨S2x2048x16, .f32⟩
  | .hbm, ⟨19, _⟩ => ⟨S2x2048x11008, .f32⟩
  | .hbm, ⟨20, _⟩ => ⟨S_, .f32⟩
  | .hbm, ⟨21, _⟩ => ⟨S2x2048x11008, .f32⟩
  | .hbm, ⟨22, _⟩ => ⟨S2x2048x11008, .f32⟩
  | .hbm, ⟨23, _⟩ => ⟨S2x2048x11008, .f32⟩
  | .hbm, ⟨24, _⟩ => ⟨S2x2048x11008, .f32⟩
  | .hbm, ⟨25, _⟩ => ⟨S2x2048x11008, .f32⟩
  | .hbm, ⟨26, _⟩ => ⟨S_, .f32⟩
  | .hbm, ⟨27, _⟩ => ⟨S2x2048x11008, .f32⟩
  | .hbm, ⟨28, _⟩ => ⟨S2x2048x11008, .f32⟩
  | .hbm, ⟨29, _⟩ => ⟨S_, .f32⟩
  | .hbm, ⟨30, _⟩ => ⟨S2x2048x11008, .f32⟩
  | .hbm, ⟨31, _⟩ => ⟨S2x2048x11008, .f32⟩
  | .hbm, ⟨32, _⟩ => ⟨S2x2048x11008, .f32⟩
  | .hbm, ⟨33, _⟩ => ⟨S2x2048x11008, .f32⟩
  | .hbm, ⟨34, _⟩ => ⟨S2x2048x4096, .f32⟩
  | .hbm, ⟨35, _⟩ => ⟨S2x2048x16, .f32⟩
  | .hbm, ⟨36, _⟩ => ⟨S2x2048x4096, .f32⟩
  | .hbm, ⟨37, _⟩ => ⟨S_, .f32⟩
  | .hbm, ⟨38, _⟩ => ⟨S2x2048x4096, .f32⟩
  | .hbm, ⟨39, _⟩ => ⟨S2x2048x4096, .f32⟩
  | .hbm, ⟨40, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  bcast_S_S2x2048x11008 : S_.BroadcastsInDim S2x2048x11008 (![] : Fin 0 → Fin S2x2048x11008.rank)
  bcast_S_S2x2048x4096 : S_.BroadcastsInDim S2x2048x4096 (![] : Fin 0 → Fin S2x2048x4096.rank)
  dot_S2x2048x4096_S11008x4096_S2x2048x11008_2_1_01_0_n_n_wf : DotDims.WF S2x2048x4096 S11008x4096 S2x2048x11008 [2] [1] [0, 1] [0] [] []
  dot_S2x2048x4096_S16x4096_S2x2048x16_2_1_01_0_n_n_wf : DotDims.WF S2x2048x4096 S16x4096 S2x2048x16 [2] [1] [0, 1] [0] [] []
  dot_S2x2048x16_S11008x16_S2x2048x11008_2_1_01_0_n_n_wf : DotDims.WF S2x2048x16 S11008x16 S2x2048x11008 [2] [1] [0, 1] [0] [] []
  dot_S2x2048x11008_S4096x11008_S2x2048x4096_2_1_01_0_n_n_wf : DotDims.WF S2x2048x11008 S4096x11008 S2x2048x4096 [2] [1] [0, 1] [0] [] []
  dot_S2x2048x11008_S16x11008_S2x2048x16_2_1_01_0_n_n_wf : DotDims.WF S2x2048x11008 S16x11008 S2x2048x16 [2] [1] [0, 1] [0] [] []
  dot_S2x2048x16_S4096x16_S2x2048x4096_2_1_01_0_n_n_wf : DotDims.WF S2x2048x16 S4096x16 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x4096_S16x4096_S2x2048x16_2_1_01_0_n_n : DotDims S2x2048x4096 S16x4096 S2x2048x16 where
  lhsContracting := [2]
  rhsContracting := [1]
  lhsNonContracting := [0, 1]
  rhsNonContracting := [0]
  lhsBatch := []
  rhsBatch := []
  wf := dot_S2x2048x4096_S16x4096_S2x2048x16_2_1_01_0_n_n_wf
def dot_S2x2048x16_S11008x16_S2x2048x11008_2_1_01_0_n_n : DotDims S2x2048x16 S11008x16 S2x2048x11008 where
  lhsContracting := [2]
  rhsContracting := [1]
  lhsNonContracting := [0, 1]
  rhsNonContracting := [0]
  lhsBatch := []
  rhsBatch := []
  wf := dot_S2x2048x16_S11008x16_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf
def dot_S2x2048x11008_S16x11008_S2x2048x16_2_1_01_0_n_n : DotDims S2x2048x11008 S16x11008 S2x2048x16 where
  lhsContracting := [2]
  rhsContracting := [1]
  lhsNonContracting := [0, 1]
  rhsNonContracting := [0]
  lhsBatch := []
  rhsBatch := []
  wf := dot_S2x2048x11008_S16x11008_S2x2048x16_2_1_01_0_n_n_wf
def dot_S2x2048x16_S4096x16_S2x2048x4096_2_1_01_0_n_n : DotDims S2x2048x16 S4096x16 S2x2048x4096 where
  lhsContracting := [2]
  rhsContracting := [1]
  lhsNonContracting := [0, 1]
  rhsNonContracting := [0]
  lhsBatch := []
  rhsBatch := []
  wf := dot_S2x2048x16_S4096x16_S2x2048x4096_2_1_01_0_n_n_wf

class Facts : Prop extends Facts₀ where

variable [Facts]
-- ==== Proof.Kernel.R0.lean ====
/-
  The first kernel region (the hidden activations) as a pipeline: what each of its eight windows' staging buffers holds
  before and after the body at every grid point, and the body's triple. Window w < 7 is an input; window 7 is the
  output block, which the body overwrites whole with its one payload computed from the seven input blocks. Stated
  for any float instance and at any contents V of the core's buffers when the region is entered.
-/
import proofs.«120860_j26250840113719_2_alg».proof.Proof.Gen.Kernel.Launch
import proofs.«120860_j26250840113719_2_alg».proof.Proof.Gen.Kernel.Skeleton
import proofs.«120860_j26250840113719_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks' extents run to 4096: terms over them nest that deep
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- The block of window `w` at grid point `t`: the window's array as it stands at region entry (`V`), read through the
    rectangle the window's index map names at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is fetched anew only when its block index changes; in either case the staging buffer the body is
    handed at point `t` holds the block of point `t`. For any proof data over the entry arrays (`hA`) whose body
    leaves this window's buffer as it found it (`hafter`); every block lies inside the array and no point skips the window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is fetched anew only when its block index changes; in either case the staging buffer the body is
    handed at point `t` holds the block of point `t`. For any proof data over the entry arrays (`hA`) whose body
    leaves this window's buffer as it found it (`hafter`); every block lies inside the array and no point skips the window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 is fetched anew only when its block index changes; in either case the staging buffer the body is
    handed at point `t` holds the block of point `t`. For any proof data over the entry arrays (`hA`) whose body
    leaves this window's buffer as it found it (`hafter`); every block lies inside the array and no point skips the window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 is fetched anew only when its block index changes; in either case the staging buffer the body is
    handed at point `t` holds the block of point `t`. For any proof data over the entry arrays (`hA`) whose body
    leaves this window's buffer as it found it (`hafter`); every block lies inside the array and no point skips the window. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 is fetched anew only when its block index changes; in either case the staging buffer the body is
    handed at point `t` holds the block of point `t`. For any proof data over the entry arrays (`hA`) whose body
    leaves this window's buffer as it found it (`hafter`); every block lies inside the array and no point skips the window. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 is fetched anew only when its block index changes; in either case the staging buffer the body is
    handed at point `t` holds the block of point `t`. For any proof data over the entry arrays (`hA`) whose body
    leaves this window's buffer as it found it (`hafter`); every block lies inside the array and no point skips the window. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 is fetched anew only when its block index changes; in either case the staging buffer the body is
    handed at point `t` holds the block of point `t`. For any proof data over the entry arrays (`hA`) whose body
    leaves this window's buffer as it found it (`hafter`); every block lies inside the array and no point skips the window. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole staging buffer -/

abbrev r0_0 : Rect S512x4096 := Rect.unit (s := S512x4096) ![0, 0] S512x4096.size inb_S512x4096_S512x4096_0_0
abbrev r0_1 : Rect S256x4096 := Rect.unit (s := S256x4096) ![0, 0] S256x4096.size inb_S256x4096_S256x4096_0_0
abbrev r0_2 : Rect S512x16 := Rect.unit (s := S512x16) ![0, 0] S512x16.size inb_S512x16_S512x16_0_0
abbrev r0_3 : Rect S16x256 := Rect.unit (s := S16x256) ![0, 0] S16x256.size inb_S16x256_S16x256_0_0
abbrev r0_4 : Rect S512x256 := Rect.unit (s := S512x256) ![0, 0] S512x256.size inb_S512x256_S512x256_0_0

/-! ## What the body leaves in the output window's buffer -/

/-- Window 7's staging buffer after the body, from the seven input windows' blocks: its one store, of the body's
    payload over what the seven loads read. -/
def out0_7 (x0 : Vec F S512x4096 .bf16) (x1 : Vec F S256x4096 .bf16) (x2 : Vec F S256x4096 .bf16) (x3 : Vec F S512x16 .bf16) (x4 : Vec F S512x16 .bf16) (x5 : Vec F S16x256 .bf16) (x6 : Vec F S16x256 .bf16) : Vec F S512x256 .bf16 :=
  View.canon [⟨r0_4, k0_pay1 (View.ld x0 r0_0) (View.ld x1 r0_1) (View.ld x2 r0_1) (View.ld x3 r0_2) (View.ld x4 r0_2) (View.ld x5 r0_3) (View.ld x6 r0_3)⟩]

/-- The one store is of the whole buffer, so it covers it. -/
theorem cover0_7 (p0 : Vec F S512x256 .bf16) (y : S512x256.Idx) :
    ∃ pc ∈ ([⟨r0_4, p0⟩] : List (View.Piece (Elt F) S512x256 .bf16)), y ∈ pc.1.set :=
  View.cover_of_tiled [⟨r0_4, p0⟩] S512x256.size (by rfl) y

/-! ## The body's triple -/

set_option maxHeartbeats 4000000 in
/-- The body's triple. Started with the seven input buffers holding `x0 … x6` and the output buffer holding anything,
    the body ends with the inputs unchanged and the output holding `out0_7 x0 … x6`: it reads each input whole, and its
    one store overwrites the output whole. -/
theorem sound_kernel0 (c : Dev nD) (E : Set ℕ) (i : grid0.Coords) (arg0 : Memref sig .tc .vmem S512x4096 .bf16) (harg0 : arg0.IsWhole) (arg1 : Memref sig .tc .vmem S256x4096 .bf16) (harg1 : arg1.IsWhole) (arg2 : Memref sig .tc .vmem S256x4096 .bf16) (harg2 : arg2.IsWhole) (arg3 : Memref sig .tc .vmem S512x16 .bf16) (harg3 : arg3.IsWhole) (arg4 : Memref sig .tc .vmem S512x16 .bf16) (harg4 : arg4.IsWhole) (arg5 : Memref sig .tc .vmem S16x256 .bf16) (harg5 : arg5.IsWhole) (arg6 : Memref sig .tc .vmem S16x256 .bf16) (harg6 : arg6.IsWhole) (arg7 : Memref sig .tc .vmem S512x256 .bf16) (harg7 : arg7.IsWhole)
    (x0 : Vec F S512x4096 .bf16) (x1 : Vec F S256x4096 .bf16) (x2 : Vec F S256x4096 .bf16) (x3 : Vec F S512x16 .bf16) (x4 : Vec F S512x16 .bf16) (x5 : Vec F S16x256 .bf16) (x6 : Vec F S16x256 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_act_kernel i arg0 harg0 arg1 harg1 arg2 harg2 arg3 harg3 arg4 harg4 arg5 harg5 arg6 harg6 arg7 harg7) K := by
  simp only [cc0__mlp_act_kernel_eq_skeleton]; unfold cc0__mlp_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The pipeline's proof data on core `c`. The arrays start as `V` has them. After the body at point `t` an input's
    buffer still holds its block and the output's holds `out0_7` of the seven input blocks. The invariant carried from
    point to point is the rest of the core's scoped memory and its generator register, which the body never touches;
    every buffer is owned in full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The arrays of `dat0` are `V`'s. -/
theorem A_eq0 (c : Dev nD) (w : Fin cfg0.W) : (dat0 V c).A w = V c (Pipeline.arrRef spec0 w) := by
  dsimp only [dat0]

/-- `dat0`'s contents after the body, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- For `dat0`: the buffer of each input window holds the block of the current point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- The state the body starts from at point `t`: the invariant, the owed count, and each window's current buffer at
    its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- The state it must reach: the same with each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- At every point the input buffers hold the point's blocks, so the body's triple applies with `xW` the block of
    window `W`; the invariant and the owed count are framed around it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- So the body meets its obligation at every grid point. -/
theorem body_obligation0 (c : Dev nD) : BodyObligation (dat0 (F := F) V c) (defs₀ (F := F)) Variants.none () Set.univ := fun t => by
  rw [bigSep_W0, bigSep_W0]
  exact sound_body0 V c t

end Region

end Cert.Kernel.R0

end
-- ==== Proof.Kernel.R1Shared.lean ====
/-
  The second region (the down projection): what its body and its proof data are stated over.

  The region walks an 8 × 43 grid, row tile outermost; point t has hidden tile t mod 43. Its body keeps two running sums
  across the 43 hidden tiles of a row tile — the 512 × 4096 output block, resident in its staging buffer, and a 512 × 16
  scratch — resets both at the first hidden tile and adds the rank-16 correction at the last.
-/
import proofs.«120860_j26250840113719_2_alg».proof.Proof.Gen.Kernel.Launch
import proofs.«120860_j26250840113719_2_alg».proof.Proof.Gen.Kernel.Skeleton
import proofs.«120860_j26250840113719_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two branch conditions, from the grid coordinates -/

/-- "This is the first hidden tile of the row tile." -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

/-- "This is the last hidden tile of the row tile." -/
abbrev cond1_1 (i : grid1.Coords) : Prop := (Scalar.cmpi .ne (Scalar.extui (Scalar.cmpi .eq (BitVec.ofNat 32 (i 1).val) 42#32)) 0#32) = 1#1
theorem hcond1_1 : ∀ t : Fin cfg1.N, cond1_1 (grid1.coords t) ↔ t.val % 43 = 42 :=
  (by decide +kernel : ∀ t : Fin grid1.N, cond1_1 (grid1.coords t) ↔ t.val % 43 = 42)

/-! ## The memrefs the body is called with -/

/-- One staging buffer of the output window, through which its contents are stated. -/
abbrev VO1_4 : View sig .tc .vmem S512x4096 .f32 := (Memref.whole cc1_stg4_0 : Memref sig .tc .vmem S512x4096 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
/-- The scratch: a whole scoped buffer of the kernel's own, carried from point to point. -/
abbrev scM1_0 : Memref sig .tc .vmem S512x16 .f32 := Memref.whole cc1_scratch0
abbrev VS1_0 : View sig .tc .vmem S512x16 .f32 := scM1_0.view

/-! ## The scoped buffers the region does not use, and the class invariant with the scratch split off -/

/-- The first region's sixteen staging buffers, each whole at some contents: what this region's body never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The sixteen and one more, as the launch lists them, are the sixteen beside the one. -/
theorem chain_split (c : Dev nD) (S : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ S) ⊢ iprop(others1 c ∗ S) := by
  unfold others1
  iintro ⟨H0, H1, H2, H3, H4, H5, H6, H7, H8, H9, H10, H11, H12, H13, H14, H15, HS⟩
  isplitr [HS]
  swap; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem chain_join (c : Dev nD) (S : sProp 𝕄) :
    iprop(others1 c ∗ S) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ S) := by
  unfold others1
  iintro ⟨⟨H0, H1, H2, H3, H4, H5, H6, H7, H8, H9, H10, H11, H12, H13, H14, H15⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HS

/-- The class invariant of this region: the sixteen, the scratch at some contents, the generator register at some state. -/
theorem PhiA1_split (c : Dev nD) :
    (Pipeline.ΦA spec1 c : sProp 𝕄) ⊢ iprop((others1 c ∗ (∃ d, owns (c : Thread nD τ) scM1_0 fullShare d)) ∗ (∃ r, prngReg c r)) := by
  unfold Pipeline.ΦA; rw [scopedRest1_eq]; simp only [scM1_0, owns_whole]
  iintro ⟨Hs, Hg⟩
  isplitr [Hg]
  swap; · iexact Hg
  ihave H := (chain_split c _) $$ Hs
  icases H with ⟨Ho, ⟨%f, HS⟩⟩
  isplitl [Ho]; · iexact Ho
  iexists f; iexact HS

theorem PhiA1_join (c : Dev nD) :
    iprop((others1 c ∗ (∃ d, owns (c : Thread nD τ) scM1_0 fullShare d)) ∗ (∃ r, prngReg c r)) ⊢ (Pipeline.ΦA spec1 c : sProp 𝕄) := by
  unfold Pipeline.ΦA; rw [scopedRest1_eq]; simp only [scM1_0, owns_whole]
  iintro ⟨⟨Ho, ⟨%d, HS⟩⟩, Hg⟩
  isplitr [Hg]
  swap; · iexact Hg
  iapply (chain_join c _)
  isplitl [Ho]; · iexact Ho
  iexists d; iexact HS

end Cert.Kernel.R1

end
-- ==== Proof.Kernel.R1RunA.lean ====
/-
  The second region's body run whole in one case of its two conditionals: the first hidden tile of a row tile — both accumulators are reset, then this tile's products added.
-/
import proofs.«120860_j26250840113719_2_alg».proof.Proof.Kernel.R1Shared

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's buffer and in the scratch, as pieces (last first), with the proof
    that on whole memrefs holding the stated contents the body runs to the continuation holding the inputs as they were and
    the two accumulators with those pieces written. The pieces are what the run finds. -/
noncomputable def kernelRun1_A (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp_down_kernel i arg2 harg2 arg3 harg3 arg4 harg4 arg5 harg5 arg6 harg6 arg7 harg7) K } := by
  refine ⟨?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]; · iexists _; iexact H4
    iexists _; iexact HS0

end Cert.Kernel.R1

end
-- ==== Proof.Kernel.R1RunB.lean ====
/-
  The second region's body run whole in one case of its two conditionals: a hidden tile that is neither first nor last — this tile's products are added to both running sums.
-/
import proofs.«120860_j26250840113719_2_alg».proof.Proof.Kernel.R1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's buffer and in the scratch, as pieces (last first), with the proof
    that on whole memrefs holding the stated contents the body runs to the continuation holding the inputs as they were and
    the two accumulators with those pieces written. The pieces are what the run finds. -/
noncomputable def kernelRun1_B (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp_down_kernel i arg2 harg2 arg3 harg3 arg4 harg4 arg5 harg5 arg6 harg6 arg7 harg7) K } := by
  refine ⟨?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]; · iexists _; iexact H4
    iexists _; iexact HS0

end Cert.Kernel.R1

end
-- ==== Proof.Kernel.R1RunC.lean ====
/-
  The second region's body run whole in one case of its two conditionals: the last hidden tile of a row tile — this tile's products are added, then the rank-16 correction from the finished scratch.
-/
import proofs.«120860_j26250840113719_2_alg».proof.Proof.Kernel.R1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's buffer and in the scratch, as pieces (last first), with the proof
    that on whole memrefs holding the stated contents the body runs to the continuation holding the inputs as they were and
    the two accumulators with those pieces written. The pieces are what the run finds. -/
noncomputable def kernelRun1_C (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp_down_kernel i arg2 harg2 arg3 harg3 arg4 harg4 arg5 harg5 arg6 harg6 arg7 harg7) K } := by
  refine ⟨?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R1

end
-- ==== Proof.Kernel.R1.lean ====
/-
  The second region: what its two accumulators hold point by point, its proof data, and the body's obligation.

  After the body at point t the output block's buffer and the scratch hold the running sums over the hidden tiles
  0 … t mod 43 of the point's row tile (with the rank-16 correction added into the output at the last tile): stated by
  recursion on the point, each point in the case its position mod 43 selects, reading what the point before left.
-/
import proofs.«120860_j26250840113719_2_alg».proof.Proof.Kernel.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the output block cover its buffer. -/
theorem cover1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x4096.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S512x4096.size (by sl_kernel_rfl) y

/-- What case A leaves in the output block's buffer: its pieces read back. -/
def out1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x4096 .f32 :=
  VO1_4.read (Elt F) (VO1_4.writes (Elt F) VO1_4.junk (kernelRun1_A c i arg2 harg2 arg3 harg3 arg4 harg4 arg5 harg5 arg6 harg6 arg7 harg7 hc0 hc1 x0 x1 x2).1)

/-- Case A's pieces for the scratch cover it. -/
theorem scover1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x16.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S512x16.size (by sl_kernel_rfl) y

/-- What case A leaves in the scratch: its pieces read back. -/
def sout1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x16 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- Case B's pieces for the output block cover its buffer. -/
theorem cover1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x4096.Idx) :
    ∃ pc ∈ (kernelRun1_B c i arg2 harg2 arg3 harg3 arg4 harg4 arg5 harg5 arg6 harg6 arg7 harg7 hc0 hc1 x0 x1 x2 xo4 xs0).1, y ∈ pc.1.set :=
  View.cover_of_tiledL (kernelRun1_B c i arg2 harg2 arg3 harg3 arg4 harg4 arg5 harg5 arg6 harg6 arg7 harg7 hc0 hc1 x0 x1 x2 xo4 xs0).1 S512x4096.size (by sl_kernel_rfl) y

/-- What case B leaves in the output block's buffer: its pieces read back. -/
def out1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x4096 .f32 :=
  VO1_4.read (Elt F) (VO1_4.writes (Elt F) VO1_4.junk (kernelRun1_B c i arg2 harg2 arg3 harg3 arg4 harg4 arg5 harg5 arg6 harg6 arg7 harg7 hc0 hc1 x0 x1 x2 xo4 xs0).1)

/-- Case B's pieces for the scratch cover it. -/
theorem scover1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x16.Idx) :
    ∃ pc ∈ (kernelRun1_B c i arg2 harg2 arg3 harg3 arg4 harg4 arg5 harg5 arg6 harg6 arg7 harg7 hc0 hc1 x0 x1 x2 xo4 xs0).2.1, y ∈ pc.1.set :=
  View.cover_of_tiledL (kernelRun1_B c i arg2 harg2 arg3 harg3 arg4 harg4 arg5 harg5 arg6 harg6 arg7 harg7 hc0 hc1 x0 x1 x2 xo4 xs0).2.1 S512x16.size (by sl_kernel_rfl) y

/-- What case B leaves in the scratch: its pieces read back. -/
def sout1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x16 .f32 :=
  VS1_0.read (Elt F) (VS1_0.writes (Elt F) VS1_0.junk (kernelRun1_B c i arg2 harg2 arg3 harg3 arg4 harg4 arg5 harg5 arg6 harg6 arg7 harg7 hc0 hc1 x0 x1 x2 xo4 xs0).2.1)

/-- Case C's pieces for the output block cover its buffer. -/
theorem cover1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) (y : S512x4096.Idx) :
    ∃ pc ∈ (kernelRun1_C c i arg2 harg2 arg3 harg3 arg4 harg4 arg5 harg5 arg6 harg6 arg7 harg7 hc0 hc1 x0 x1 x2 x3 xo4 xs0).1, y ∈ pc.1.set :=
  View.cover_of_tiledL (kernelRun1_C c i arg2 harg2 arg3 harg3 arg4 harg4 arg5 harg5 arg6 harg6 arg7 harg7 hc0 hc1 x0 x1 x2 x3 xo4 xs0).1 S512x4096.size (by sl_kernel_rfl) y

/-- What case C leaves in the output block's buffer: its pieces read back. -/
def out1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) : Vec F S512x4096 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xo4 xs0).1)

/-- Case C's pieces for the scratch cover it. -/
theorem scover1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) (y : S512x16.Idx) :
    ∃ pc ∈ (kernelRun1_C c i arg2 harg2 arg3 harg3 arg4 harg4 arg5 harg5 arg6 harg6 arg7 harg7 hc0 hc1 x0 x1 x2 x3 xo4 xs0).2.1, y ∈ pc.1.set :=
  View.cover_of_tiledL (kernelRun1_C c i arg2 harg2 arg3 harg3 arg4 harg4 arg5 harg5 arg6 harg6 arg7 harg7 hc0 hc1 x0 x1 x2 x3 xo4 xs0).2.1 S512x16.size (by sl_kernel_rfl) y

/-- What case C leaves in the scratch: its pieces read back. -/
def sout1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) : Vec F S512x16 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xo4 xs0).2.1)

section Entry
variable (V : (c : Dev nD) → (b : Ref sig .tc) → Buf (Elt F) ((c : Thread nD τ).loc b))

/-! ## The accumulation -/

/-- What the output block's buffer and the scratch hold after the body at position `n` (a pair). -/
def outsAt1 (c : Dev nD) : (n : ℕ) → n < cfg1.N → Vec F S512x4096 .f32 × Vec F S512x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- At a first hidden tile: case A's contents. -/
theorem outsAt1_A (c : Dev nD) (t : Fin cfg1.N) (h0 : t.val % 43 = 0) (h1 : ¬t.val % 43 = 42) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle hidden tile: case B's contents, over what the point before left. -/
theorem outsAt1_B (c : Dev nD) (t : Fin cfg1.N) (h0 : ¬t.val % 43 = 0) (h1 : ¬t.val % 43 = 42) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last hidden tile: case C's contents, over what the point before left. -/
theorem outsAt1_C (c : Dev nD) (t : Fin cfg1.N) (h0 : ¬t.val % 43 = 0) (h1 : t.val % 43 = 42) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch at what the point before left -/

/-- Before position `n`: at the first point the class invariant (the scratch at anything); afterwards the first region's
    staging buffers untouched, the scratch at what the point before left in it, the generator register at some state. -/
def PhiS (c : Dev nD) : (n : ℕ) → n ≤ cfg1.N → sProp 𝕄
  | 0, _ => Pipeline.ΦA spec1 c
  | n + 1, hn => iprop((others1 c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others1 c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop((others1 c ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block, the output's at the running
    sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Past the first hidden tile of a row tile the output block's buffer holds what the body left at the point before: the
    block is written back only after a last hidden tile. -/
theorem before1_4_acc (c : Dev nD) (t : Fin cfg1.N) (h0 : ¬t.val % 43 = 0) (d) :
    (dat1 V c).before 4 t d = (outsAt1 V c (t.val - 1) (Nat.lt_of_le_of_lt (Nat.sub_le _ _) t.isLt)).1 := by
  have hN : t.val < 344 := lt_of_lt_of_eq t.isLt (show cfg1.N = 344 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' memrefs hold their blocks; the point's position mod 43 says which case it is in;
    past a first hidden tile the output block's buffer and the scratch hold what the point before left; so that case's
    run applies, and the accumulators are handed back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  have hN : t.val < 344 := lt_of_lt_of_eq t.isLt (show cfg1.N = 344 from N_1)
  by_cases h0 : t.val % 43 = 0
  · by_cases h1 : t.val % 43 = 42
    · exfalso; omega
    · rw [outsAt1_A V c t h0 h1]
      unfold out1_A_4 sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_split c) $$ HΦ
        icases HΦ' with ⟨⟨Hoth, HS0⟩, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 Set.univ _)
        isplitl [H0]; · iexact H0
        isplitl [H1]; · iexact H1
        isplitl [H2]; · iexact H2
        isplitl [H4]; · iexists _; iexact H4
        isplitl [HS0]; · iexact HS0
        iintro ⟨H0, H1, H2, ⟨%e4, H4⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 Set.univ _)
        isplitl [H0]; · iexact H0
        isplitl [H1]; · iexact H1
        isplitl [H2]; · iexact H2
        isplitl [H4]; · iexists _; iexact H4
        isplitl [HS0]; · iexists _; iexact HS0
        iintro ⟨H0, H1, H2, ⟨%e4, H4⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
  · have hz : t.val ≠ 0 := fun e => h0 (by rw [e])
    by_cases h1 : t.val % 43 = 42
    · rw [outsAt1_C V c t h0 h1]
      simp only [before1_4_acc V c t h0]
      unfold out1_C_4 sout1_C_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _ _).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, ⟨%e4, H4⟩, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover1_C_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _)
    · rw [outsAt1_B V c t h0 h1]
      simp only [before1_4_acc V c t h0]
      unfold out1_B_4 sout1_B_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 Set.univ _)
      isplitl [H0]; · iexact H0
      isplitl [H1]; · iexact H1
      isplitl [H2]; · iexact H2
      isplitl [H4]; · iexact H4
      isplitl [HS0]; · iexact HS0
      iintro ⟨H0, H1, H2, ⟨%e4, H4⟩, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 344 := N_1; omega)]
  iintro ⟨⟨Hoth, HS0⟩, Hg⟩
  iapply (PhiA1_join c)
  isplitr [Hg]
  swap; · iexact Hg
  isplitl [Hoth]; · iexact Hoth
  iexists _; iexact HS0

end Entry

end Cert.Kernel.R1

end
-- ==== Proof.Kernel.Run.lean ====
/-
  The whole run of the program, for any float instance.

  The program is four items in a row: a stretch of host operations (the flattening of x to 4096 rows, the casts, the
  transposes of the second adapter factors and the two rank-16 row projections), the first region (the hidden
  activations), the second region (the result rows, accumulated over the hidden tiles), and one host operation (the
  reshape of the 4096 rows back to 2 × 2048). The contents of the core's buffers at the five boundaries are a fold from
  the launch memory: a host stretch leaves what its operations compute, a region leaves its windows' arrays at what its
  write-backs give and every other buffer as it found it. Region 0's only output array is main_v18, region 1's is
  main_v19, and no argument is written by anything, so each argument reads back through the fold to its launch contents.
  The run itself is the library's several-region launch over these boundary contents: between two items the core holds
  every unscoped buffer whole at the boundary's contents, its generator register at some state, and owes nothing.
-/
import proofs.«120860_j26250840113719_2_alg».proof.Proof.Kernel.R0
import proofs.«120860_j26250840113719_2_alg».proof.Proof.Kernel.R1
import proofs.«120860_j26250840113719_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at the five boundaries -/

/-- Core `c`'s buffers at launch (the generator registers play no part in them). -/
abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- After the first host stretch: what region 0 is entered from. -/
abbrev W1 : Dev nD → Valuation τ sig (Elt F) := fun c => StableHlo.after hostOps0 (W0 m ρ c)
/-- The same, read at the core's own references (what region 0's proof data take). -/
abbrev V1 : (c : Dev nD) → (b : Ref sig .tc) → Buf (Elt F) ((c : Thread nD τ).loc b) := fun c b => W1 m ρ c b
/-- After region 0: its windows' arrays at what its write-backs leave (an input's as entered, the output's every block
    written back), every other buffer as entered. Region 1 is entered from here: no host operation sits between the two. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
/-- The hidden activations' buffer after region 0: window 7's array with every block written back. -/
theorem W2_v18 (c : Dev nD) : W2 m ρ c (Proc.devRef .tc main_v18) = (R0.dat0 (V1 m ρ) c).arrAt 7 cfg0.N :=
  W2_arr m ρ c 7
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references (region 0's exit and region 1's entry contents). -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its windows' arrays at what its write-backs leave, every other buffer as entered. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
/-- The result rows' buffer after region 1: window 4's array with every block written back. -/
theorem W3_v19 (c : Dev nD) : W3 m ρ c (Proc.devRef .tc main_v19) = (R1.dat1 (V2 m ρ) c).arrAt 4 cfg1.N :=
  W3_arr m ρ c 4
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references (region 1's exit contents). -/
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host operation (the reshape of the result rows): the contents the program returns with. -/
abbrev W4 : Dev nD → Valuation τ sig (Elt F) := fun c => StableHlo.after hostOps2 (W3 m ρ c)

/-! ### Every argument ends as launched

No host operation writes an argument and no window of either region has an argument for its array, so the fold at
an argument's buffer walks back, boundary by boundary, to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data of the two pipelines and what rides beside the buffers -/

/-- No pipeline has a prefetched table. -/
abbrev adm : (p : Fin 2) → (pcfgs (F := F) p).Adm := fun p => (cfgs p).toPCfg_adm
/-- Each pipeline's proof data at the contents its region is entered from (a literal case split on the pipeline's
    number, so that a numeral reduces to the region's own configuration). -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers, through every item: the core's generator register at some state and its dues, at nothing. -/
abbrev R (c : Dev nD) : sProp 𝕄 := iprop((∃ r, prngReg c r) ∗ ∃ W, owes (c : Thread nD τ) (0 : CellTallies nD τ sig Unit) W)
/-- A host stretch as an item of the run: every unscoped buffer from the contents `W` to the contents after the
    stretch's operations, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- Nor does the final reshape. -/
theorem hostOps2_fresh : (hostOps2 : List (HloOp τ sig (Elt F))).Forall fun op => op.fresh = ∅ := by
  simp only [List.Forall]; repeat' constructor
/-- An unscoped reference of the core is among those the boundary states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary's state without the dues: every unscoped buffer at `W4`, the generator register at some state. -/
abbrev Tₙ (c : Dev nD) : sProp 𝕄 := iprop(StableHlo.held (c : Thread nD τ) (Pipeline.ucRefs τ sig) (W4 m ρ c) ∗ ∃ r, prngReg c r)

/-- What the final reshape leaves is the last boundary's state beside the dues at nothing (the same three parts, regrouped). -/
theorem last_link (c : Dev nD) :
    iprop(StableHlo.held (c : Thread nD τ) (Pipeline.ucRefs τ sig) (W4 m ρ c) ∗ R (F := F) c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The two regions as items of the run -/

set_option backward.isDefEq.respectTransparency.types false in
/-- REGION 0, entered with every unscoped buffer at `W1` and left with them at `W2`: its eight arrays are split out of
    the unscoped buffers at entry and put back at their exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1, entered with every unscoped buffer at `W2` (what region 0 left) and left with them at `W3`. Its invariant
    follows the scratch accumulator from point to point, so it meets the class invariant only at the two ends: what the
    launch hands over is the invariant before the first point, and after the last point the class invariant is given back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (V2 m ρ) c)
    unfold Pipeline.ΦA
    iintro ⟨Hp, -, Hr⟩
    isplitl [Hr]; · iexact Hr
    iexact Hp
  hout c := by
    rw [Pipeline.ownSems0_none]
    refine BIBase.Entails.trans (R1.hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

/-- The four items in order: the host stretch from the launch contents, the two regions, the final reshape from what
    region 1 left. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program IS the run of the four items. -/
theorem main_run (c : Dev nD) : main (F := F) c = Pipeline.Seg.run (segs m ρ) := (main_chain c).trans (by chain_rfl)

set_option backward.isDefEq.respectTransparency.types false in
/-- THE RUN: from any memory with zero counters every weakly fair execution of the program terminates, and in every
    final state each unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every execution terminates and every final state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

/-- The run read at the returned buffer: it ends at the last boundary's contents there, the arguments as launched. -/
theorem run_v20 : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v20 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.Kernel.Whole

end
-- ==== Proof.KernelIdeal.R0.lean ====
/-
  The first kernel region (the hidden activations) as a pipeline: what each of its eight windows' staging buffers holds
  before and after the body at every grid point, and the body's triple. Window w < 7 is an input; window 7 is the
  output block, which the body overwrites whole with its one payload computed from the seven input blocks. Stated
  for any float instance and at any contents V of the core's buffers when the region is entered.
-/
import proofs.«120860_j26250840113719_2_alg».proof.Proof.Gen.KernelIdeal.Launch
import proofs.«120860_j26250840113719_2_alg».proof.Proof.Gen.KernelIdeal.Skeleton
import proofs.«120860_j26250840113719_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks' extents run to 4096: terms over them nest that deep
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- The block of window `w` at grid point `t`: the window's array as it stands at region entry (`V`), read through the
    rectangle the window's index map names at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is fetched anew only when its block index changes; in either case the staging buffer the body is
    handed at point `t` holds the block of point `t`. For any proof data over the entry arrays (`hA`) whose body
    leaves this window's buffer as it found it (`hafter`); every block lies inside the array and no point skips the window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is fetched anew only when its block index changes; in either case the staging buffer the body is
    handed at point `t` holds the block of point `t`. For any proof data over the entry arrays (`hA`) whose body
    leaves this window's buffer as it found it (`hafter`); every block lies inside the array and no point skips the window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 is fetched anew only when its block index changes; in either case the staging buffer the body is
    handed at point `t` holds the block of point `t`. For any proof data over the entry arrays (`hA`) whose body
    leaves this window's buffer as it found it (`hafter`); every block lies inside the array and no point skips the window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 is fetched anew only when its block index changes; in either case the staging buffer the body is
    handed at point `t` holds the block of point `t`. For any proof data over the entry arrays (`hA`) whose body
    leaves this window's buffer as it found it (`hafter`); every block lies inside the array and no point skips the window. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 is fetched anew only when its block index changes; in either case the staging buffer the body is
    handed at point `t` holds the block of point `t`. For any proof data over the entry arrays (`hA`) whose body
    leaves this window's buffer as it found it (`hafter`); every block lies inside the array and no point skips the window. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 is fetched anew only when its block index changes; in either case the staging buffer the body is
    handed at point `t` holds the block of point `t`. For any proof data over the entry arrays (`hA`) whose body
    leaves this window's buffer as it found it (`hafter`); every block lies inside the array and no point skips the window. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 is fetched anew only when its block index changes; in either case the staging buffer the body is
    handed at point `t` holds the block of point `t`. For any proof data over the entry arrays (`hA`) whose body
    leaves this window's buffer as it found it (`hafter`); every block lies inside the array and no point skips the window. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole staging buffer -/

abbrev r0_0 : Rect S512x4096 := Rect.unit (s := S512x4096) ![0, 0] S512x4096.size inb_S512x4096_S512x4096_0_0
abbrev r0_1 : Rect S256x4096 := Rect.unit (s := S256x4096) ![0, 0] S256x4096.size inb_S256x4096_S256x4096_0_0
abbrev r0_2 : Rect S512x16 := Rect.unit (s := S512x16) ![0, 0] S512x16.size inb_S512x16_S512x16_0_0
abbrev r0_3 : Rect S16x256 := Rect.unit (s := S16x256) ![0, 0] S16x256.size inb_S16x256_S16x256_0_0
abbrev r0_4 : Rect S512x256 := Rect.unit (s := S512x256) ![0, 0] S512x256.size inb_S512x256_S512x256_0_0

/-! ## What the body leaves in the output window's buffer -/

/-- Window 7's staging buffer after the body, from the seven input windows' blocks: its one store, of the body's
    payload over what the seven loads read. -/
def out0_7 (x0 : Vec F S512x4096 .bf16) (x1 : Vec F S256x4096 .bf16) (x2 : Vec F S256x4096 .bf16) (x3 : Vec F S512x16 .bf16) (x4 : Vec F S512x16 .bf16) (x5 : Vec F S16x256 .bf16) (x6 : Vec F S16x256 .bf16) : Vec F S512x256 .bf16 :=
  View.canon [⟨r0_4, k0_pay1 (View.ld x0 r0_0) (View.ld x1 r0_1) (View.ld x2 r0_1) (View.ld x3 r0_2) (View.ld x4 r0_2) (View.ld x5 r0_3) (View.ld x6 r0_3)⟩]

/-- The one store is of the whole buffer, so it covers it. -/
theorem cover0_7 (p0 : Vec F S512x256 .bf16) (y : S512x256.Idx) :
    ∃ pc ∈ ([⟨r0_4, p0⟩] : List (View.Piece (Elt F) S512x256 .bf16)), y ∈ pc.1.set :=
  View.cover_of_tiled [⟨r0_4, p0⟩] S512x256.size (by rfl) y

/-! ## The body's triple -/

set_option maxHeartbeats 4000000 in
/-- The body's triple. Started with the seven input buffers holding `x0 … x6` and the output buffer holding anything,
    the body ends with the inputs unchanged and the output holding `out0_7 x0 … x6`: it reads each input whole, and its
    one store overwrites the output whole. -/
theorem sound_kernel0 (c : Dev nD) (E : Set ℕ) (i : grid0.Coords) (arg0 : Memref sig .tc .vmem S512x4096 .bf16) (harg0 : arg0.IsWhole) (arg1 : Memref sig .tc .vmem S256x4096 .bf16) (harg1 : arg1.IsWhole) (arg2 : Memref sig .tc .vmem S256x4096 .bf16) (harg2 : arg2.IsWhole) (arg3 : Memref sig .tc .vmem S512x16 .bf16) (harg3 : arg3.IsWhole) (arg4 : Memref sig .tc .vmem S512x16 .bf16) (harg4 : arg4.IsWhole) (arg5 : Memref sig .tc .vmem S16x256 .bf16) (harg5 : arg5.IsWhole) (arg6 : Memref sig .tc .vmem S16x256 .bf16) (harg6 : arg6.IsWhole) (arg7 : Memref sig .tc .vmem S512x256 .bf16) (harg7 : arg7.IsWhole)
    (x0 : Vec F S512x4096 .bf16) (x1 : Vec F S256x4096 .bf16) (x2 : Vec F S256x4096 .bf16) (x3 : Vec F S512x16 .bf16) (x4 : Vec F S512x16 .bf16) (x5 : Vec F S16x256 .bf16) (x6 : Vec F S16x256 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_act_kernel i arg0 harg0 arg1 harg1 arg2 harg2 arg3 harg3 arg4 harg4 arg5 harg5 arg6 harg6 arg7 harg7) K := by
  simp only [cc0__mlp_act_kernel_eq_skeleton]; unfold cc0__mlp_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The pipeline's proof data on core `c`. The arrays start as `V` has them. After the body at point `t` an input's
    buffer still holds its block and the output's holds `out0_7` of the seven input blocks. The invariant carried from
    point to point is the rest of the core's scoped memory and its generator register, which the body never touches;
    every buffer is owned in full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The arrays of `dat0` are `V`'s. -/
theorem A_eq0 (c : Dev nD) (w : Fin cfg0.W) : (dat0 V c).A w = V c (Pipeline.arrRef spec0 w) := by
  dsimp only [dat0]

/-- `dat0`'s contents after the body, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- For `dat0`: the buffer of each input window holds the block of the current point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- The state the body starts from at point `t`: the invariant, the owed count, and each window's current buffer at
    its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- The state it must reach: the same with each buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- At every point the input buffers hold the point's blocks, so the body's triple applies with `xW` the block of
    window `W`; the invariant and the owed count are framed around it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- So the body meets its obligation at every grid point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.R0

end
-- ==== Proof.KernelIdeal.R1Shared.lean ====
/-
  The second region (the down projection): what its body and its proof data are stated over.

  The region walks an 8 × 43 grid, row tile outermost; point t has hidden tile t mod 43. Its body keeps two running sums
  across the 43 hidden tiles of a row tile — the 512 × 4096 output block, resident in its staging buffer, and a 512 × 16
  scratch — resets both at the first hidden tile and adds the rank-16 correction at the last.
-/
import proofs.«120860_j26250840113719_2_alg».proof.Proof.Gen.KernelIdeal.Launch
import proofs.«120860_j26250840113719_2_alg».proof.Proof.Gen.KernelIdeal.Skeleton
import proofs.«120860_j26250840113719_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the core's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two branch conditions, from the grid coordinates -/

/-- "This is the first hidden tile of the row tile." -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 43 = 0 :=
  (by decide +kernel : ∀ t : Fin grid1.N, cond1_0 (grid1.coords t) ↔ t.val % 43 = 0)

/-- "This is the last hidden tile of the row tile." -/
abbrev cond1_1 (i : grid1.Coords) : Prop := (Scalar.cmpi .ne (Scalar.extui (Scalar.cmpi .eq (BitVec.ofNat 32 (i 1).val) 42#32)) 0#32) = 1#1
theorem hcond1_1 : ∀ t : Fin cfg1.N, cond1_1 (grid1.coords t) ↔ t.val % 43 = 42 :=
  (by decide +kernel : ∀ t : Fin grid1.N, cond1_1 (grid1.coords t) ↔ t.val % 43 = 42)

/-! ## The memrefs the body is called with -/

/-- One staging buffer of the output window, through which its contents are stated. -/
abbrev VO1_4 : View sig .tc .vmem S512x4096 .f32 := (Memref.whole cc1_stg4_0 : Memref sig .tc .vmem S512x4096 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
/-- The scratch: a whole scoped buffer of the kernel's own, carried from point to point. -/
abbrev scM1_0 : Memref sig .tc .vmem S512x16 .f32 := Memref.whole cc1_scratch0
abbrev VS1_0 : View sig .tc .vmem S512x16 .f32 := scM1_0.view

/-! ## The scoped buffers the region does not use, and the class invariant with the scratch split off -/

/-- The first region's sixteen staging buffers, each whole at some contents: what this region's body never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- The sixteen and one more, as the launch lists them, are the sixteen beside the one. -/
theorem chain_split (c : Dev nD) (S : sProp 𝕄) :
    iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ S) ⊢ iprop(others1 c ∗ S) := by
  unfold others1
  iintro ⟨H0, H1, H2, H3, H4, H5, H6, H7, H8, H9, H10, H11, H12, H13, H14, H15, HS⟩
  isplitr [HS]
  swap; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem chain_join (c : Dev nD) (S : sProp 𝕄) :
    iprop(others1 c ∗ S) ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ S) := by
  unfold others1
  iintro ⟨⟨H0, H1, H2, H3, H4, H5, H6, H7, H8, H9, H10, H11, H12, H13, H14, H15⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HS

/-- The class invariant of this region: the sixteen, the scratch at some contents, the generator register at some state. -/
theorem PhiA1_split (c : Dev nD) :
    (Pipeline.ΦA spec1 c : sProp 𝕄) ⊢ iprop((others1 c ∗ (∃ d, owns (c : Thread nD τ) scM1_0 fullShare d)) ∗ (∃ r, prngReg c r)) := by
  unfold Pipeline.ΦA; rw [scopedRest1_eq]; simp only [scM1_0, owns_whole]
  iintro ⟨Hs, Hg⟩
  isplitr [Hg]
  swap; · iexact Hg
  ihave H := (chain_split c _) $$ Hs
  icases H with ⟨Ho, ⟨%f, HS⟩⟩
  isplitl [Ho]; · iexact Ho
  iexists f; iexact HS

theorem PhiA1_join (c : Dev nD) :
    iprop((others1 c ∗ (∃ d, owns (c : Thread nD τ) scM1_0 fullShare d)) ∗ (∃ r, prngReg c r)) ⊢ (Pipeline.ΦA spec1 c : sProp 𝕄) := by
  unfold Pipeline.ΦA; rw [scopedRest1_eq]; simp only [scM1_0, owns_whole]
  iintro ⟨⟨Ho, ⟨%d, HS⟩⟩, Hg⟩
  isplitr [Hg]
  swap; · iexact Hg
  iapply (chain_join c _)
  isplitl [Ho]; · iexact Ho
  iexists d; iexact HS

end Cert.KernelIdeal.R1

end
-- ==== Proof.KernelIdeal.R1RunA.lean ====
/-
  The second region's body run whole in one case of its two conditionals: the first hidden tile of a row tile — both accumulators are reset, then this tile's products added.
-/
import proofs.«120860_j26250840113719_2_alg».proof.Proof.KernelIdeal.R1Shared

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's buffer and in the scratch, as pieces (last first), with the proof
    that on whole memrefs holding the stated contents the body runs to the continuation holding the inputs as they were and
    the two accumulators with those pieces written. The pieces are what the run finds. -/
noncomputable def kernelRun1_A (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp_down_kernel i arg2 harg2 arg3 harg3 arg4 harg4 arg5 harg5 arg6 harg6 arg7 harg7) K } := by
  refine ⟨?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]; · iexists _; iexact H4
    iexists _; iexact HS0

end Cert.KernelIdeal.R1

end
-- ==== Proof.KernelIdeal.R1RunB.lean ====
/-
  The second region's body run whole in one case of its two conditionals: a hidden tile that is neither first nor last — this tile's products are added to both running sums.
-/
import proofs.«120860_j26250840113719_2_alg».proof.Proof.KernelIdeal.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's buffer and in the scratch, as pieces (last first), with the proof
    that on whole memrefs holding the stated contents the body runs to the continuation holding the inputs as they were and
    the two accumulators with those pieces written. The pieces are what the run finds. -/
noncomputable def kernelRun1_B (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp_down_kernel i arg2 harg2 arg3 harg3 arg4 harg4 arg5 harg5 arg6 harg6 arg7 harg7) K } := by
  refine ⟨?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]; · iexists _; iexact H4
    iexists _; iexact HS0

end Cert.KernelIdeal.R1

end
-- ==== Proof.KernelIdeal.R1RunC.lean ====
/-
  The second region's body run whole in one case of its two conditionals: the last hidden tile of a row tile — this tile's products are added, then the rank-16 correction from the finished scratch.
-/
import proofs.«120860_j26250840113719_2_alg».proof.Proof.KernelIdeal.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block's buffer and in the scratch, as pieces (last first), with the proof
    that on whole memrefs holding the stated contents the body runs to the continuation holding the inputs as they were and
    the two accumulators with those pieces written. The pieces are what the run finds. -/
noncomputable def kernelRun1_C (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) :
    Σ' (L4 : List (View.Piece (Elt F) S512x4096 .f32)), { LS0 : List (View.Piece (Elt F) S512x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__mlp_down_kernel i arg2 harg2 arg3 harg3 arg4 harg4 arg5 harg5 arg6 harg6 arg7 harg7) K } := by
  refine ⟨?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R1

end
-- ==== Proof.KernelIdeal.R1.lean ====
/-
  The second region: what its two accumulators hold point by point, its proof data, and the body's obligation.

  After the body at point t the output block's buffer and the scratch hold the running sums over the hidden tiles
  0 … t mod 43 of the point's row tile (with the rank-16 correction added into the output at the last tile): stated by
  recursion on the point, each point in the case its position mod 43 selects, reading what the point before left.
-/
import proofs.«120860_j26250840113719_2_alg».proof.Proof.KernelIdeal.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the output block cover its buffer. -/
theorem cover1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x4096.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S512x4096.size (by sl_kernel_rfl) y

/-- What case A leaves in the output block's buffer: its pieces read back. -/
def out1_A_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x4096 .f32 :=
  VO1_4.read (Elt F) (VO1_4.writes (Elt F) VO1_4.junk (kernelRun1_A c i arg2 harg2 arg3 harg3 arg4 harg4 arg5 harg5 arg6 harg6 arg7 harg7 hc0 hc1 x0 x1 x2).1)

/-- Case A's pieces for the scratch cover it. -/
theorem scover1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) (y : S512x16.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S512x16.size (by sl_kernel_rfl) y

/-- What case A leaves in the scratch: its pieces read back. -/
def sout1_A_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) : Vec F S512x16 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- Case B's pieces for the output block cover its buffer. -/
theorem cover1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x4096.Idx) :
    ∃ pc ∈ (kernelRun1_B c i arg2 harg2 arg3 harg3 arg4 harg4 arg5 harg5 arg6 harg6 arg7 harg7 hc0 hc1 x0 x1 x2 xo4 xs0).1, y ∈ pc.1.set :=
  View.cover_of_tiledL (kernelRun1_B c i arg2 harg2 arg3 harg3 arg4 harg4 arg5 harg5 arg6 harg6 arg7 harg7 hc0 hc1 x0 x1 x2 xo4 xs0).1 S512x4096.size (by sl_kernel_rfl) y

/-- What case B leaves in the output block's buffer: its pieces read back. -/
def out1_B_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x4096 .f32 :=
  VO1_4.read (Elt F) (VO1_4.writes (Elt F) VO1_4.junk (kernelRun1_B c i arg2 harg2 arg3 harg3 arg4 harg4 arg5 harg5 arg6 harg6 arg7 harg7 hc0 hc1 x0 x1 x2 xo4 xs0).1)

/-- Case B's pieces for the scratch cover it. -/
theorem scover1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) (y : S512x16.Idx) :
    ∃ pc ∈ (kernelRun1_B c i arg2 harg2 arg3 harg3 arg4 harg4 arg5 harg5 arg6 harg6 arg7 harg7 hc0 hc1 x0 x1 x2 xo4 xs0).2.1, y ∈ pc.1.set :=
  View.cover_of_tiledL (kernelRun1_B c i arg2 harg2 arg3 harg3 arg4 harg4 arg5 harg5 arg6 harg6 arg7 harg7 hc0 hc1 x0 x1 x2 xo4 xs0).2.1 S512x16.size (by sl_kernel_rfl) y

/-- What case B leaves in the scratch: its pieces read back. -/
def sout1_B_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) : Vec F S512x16 .f32 :=
  VS1_0.read (Elt F) (VS1_0.writes (Elt F) VS1_0.junk (kernelRun1_B c i arg2 harg2 arg3 harg3 arg4 harg4 arg5 harg5 arg6 harg6 arg7 harg7 hc0 hc1 x0 x1 x2 xo4 xs0).2.1)

/-- Case C's pieces for the output block cover its buffer. -/
theorem cover1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) (y : S512x4096.Idx) :
    ∃ pc ∈ (kernelRun1_C c i arg2 harg2 arg3 harg3 arg4 harg4 arg5 harg5 arg6 harg6 arg7 harg7 hc0 hc1 x0 x1 x2 x3 xo4 xs0).1, y ∈ pc.1.set :=
  View.cover_of_tiledL (kernelRun1_C c i arg2 harg2 arg3 harg3 arg4 harg4 arg5 harg5 arg6 harg6 arg7 harg7 hc0 hc1 x0 x1 x2 x3 xo4 xs0).1 S512x4096.size (by sl_kernel_rfl) y

/-- What case C leaves in the output block's buffer: its pieces read back. -/
def out1_C_4 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) : Vec F S512x4096 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xo4 xs0).1)

/-- Case C's pieces for the scratch cover it. -/
theorem scover1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) (y : S512x16.Idx) :
    ∃ pc ∈ (kernelRun1_C c i arg2 harg2 arg3 harg3 arg4 harg4 arg5 harg5 arg6 harg6 arg7 harg7 hc0 hc1 x0 x1 x2 x3 xo4 xs0).2.1, y ∈ pc.1.set :=
  View.cover_of_tiledL (kernelRun1_C c i arg2 harg2 arg3 harg3 arg4 harg4 arg5 harg5 arg6 harg6 arg7 harg7 hc0 hc1 x0 x1 x2 x3 xo4 xs0).2.1 S512x16.size (by sl_kernel_rfl) y

/-- What case C leaves in the scratch: its pieces read back. -/
def sout1_C_0 (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) : Vec F S512x16 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xo4 xs0).2.1)

section Entry
variable (V : (c : Dev nD) → (b : Ref sig .tc) → Buf (Elt F) ((c : Thread nD τ).loc b))

/-! ## The accumulation -/

/-- What the output block's buffer and the scratch hold after the body at position `n` (a pair). -/
def outsAt1 (c : Dev nD) : (n : ℕ) → n < cfg1.N → Vec F S512x4096 .f32 × Vec F S512x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- At a first hidden tile: case A's contents. -/
theorem outsAt1_A (c : Dev nD) (t : Fin cfg1.N) (h0 : t.val % 43 = 0) (h1 : ¬t.val % 43 = 42) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle hidden tile: case B's contents, over what the point before left. -/
theorem outsAt1_B (c : Dev nD) (t : Fin cfg1.N) (h0 : ¬t.val % 43 = 0) (h1 : ¬t.val % 43 = 42) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last hidden tile: case C's contents, over what the point before left. -/
theorem outsAt1_C (c : Dev nD) (t : Fin cfg1.N) (h0 : ¬t.val % 43 = 0) (h1 : t.val % 43 = 42) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch at what the point before left -/

/-- Before position `n`: at the first point the class invariant (the scratch at anything); afterwards the first region's
    staging buffers untouched, the scratch at what the point before left in it, the generator register at some state. -/
def PhiS (c : Dev nD) : (n : ℕ) → n ≤ cfg1.N → sProp 𝕄
  | 0, _ => Pipeline.ΦA spec1 c
  | n + 1, hn => iprop((others1 c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others1 c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop((others1 c ∗ owns (c : Thread nD τ) scM1_0 fullShare ((outsAt1 V c (n - 1) (by omega)).2)) ∗ (∃ r, prngReg c r)) := by
  cases n with
  | zero => exact absurd rfl hz
  | succ n => rfl

/-! ## The proof data -/

/-- The arrays as the region finds them; after the body each input's buffer at its block, the output's at the running
    sum; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Past the first hidden tile of a row tile the output block's buffer holds what the body left at the point before: the
    block is written back only after a last hidden tile. -/
theorem before1_4_acc (c : Dev nD) (t : Fin cfg1.N) (h0 : ¬t.val % 43 = 0) (d) :
    (dat1 V c).before 4 t d = (outsAt1 V c (t.val - 1) (Nat.lt_of_le_of_lt (Nat.sub_le _ _) t.isLt)).1 := by
  have hN : t.val < 344 := lt_of_lt_of_eq t.isLt (show cfg1.N = 344 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' memrefs hold their blocks; the point's position mod 43 says which case it is in;
    past a first hidden tile the output block's buffer and the scratch hold what the point before left; so that case's
    run applies, and the accumulators are handed back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  have hN : t.val < 344 := lt_of_lt_of_eq t.isLt (show cfg1.N = 344 from N_1)
  by_cases h0 : t.val % 43 = 0
  · by_cases h1 : t.val % 43 = 42
    · exfalso; omega
    · rw [outsAt1_A V c t h0 h1]
      unfold out1_A_4 sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩, ⟨%d4, H4⟩⟩
        ihave HΦ' := (PhiA1_split c) $$ HΦ
        icases HΦ' with ⟨⟨Hoth, HS0⟩, Hg⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 Set.univ _)
        isplitl [H0]; · iexact H0
        isplitl [H1]; · iexact H1
        isplitl [H2]; · iexact H2
        isplitl [H4]; · iexists _; iexact H4
        isplitl [HS0]; · iexact HS0
        iintro ⟨H0, H1, H2, ⟨%e4, H4⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
      · rw [PhiS_castSucc V c t, PhiS_pos V c _ _ hz]
        iintro ⟨⟨⟨Hoth, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2 Set.univ _)
        isplitl [H0]; · iexact H0
        isplitl [H1]; · iexact H1
        isplitl [H2]; · iexact H2
        isplitl [H4]; · iexists _; iexact H4
        isplitl [HS0]; · iexists _; iexact HS0
        iintro ⟨H0, H1, H2, ⟨%e4, H4⟩, ⟨%es0, HS0⟩⟩
        isplitl [Hoth HS0 Hg]
        · isplitl [Hoth HS0]
          · isplitl [Hoth]; · iexact Hoth
            unfold owns; iexists _; isplitr
            swap; · iexact HS0
            ipureintro; exact View.read_writes_of_cover _ _ _ _ _ (scover1_A_0 c _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_A_4 c _ _ _ _ _ _ _ _ _ _ _ _ _ _ _ _ _ _)
  · have hz : t.val ≠ 0 := fun e => h0 (by rw [e])
    by_cases h1 : t.val % 43 = 42
    · rw [outsAt1_C V c t h0 h1]
      simp only [before1_4_acc V c t h0]
      unfold out1_C_4 sout1_C_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _ _).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, ⟨%e4, H4⟩, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover1_C_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _)
    · rw [outsAt1_B V c t h0 h1]
      simp only [before1_4_acc V c t h0]
      unfold out1_B_4 sout1_B_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 Set.univ _)
      isplitl [H0]; · iexact H0
      isplitl [H1]; · iexact H1
      isplitl [H2]; · iexact H2
      isplitl [H4]; · iexact H4
      isplitl [HS0]; · iexact HS0
      iintro ⟨H0, H1, H2, ⟨%e4, H4⟩, ⟨%es0, HS0⟩⟩
      isplitl [Hoth HS0 Hg]
      · isplitl [Hoth HS0]
        · isplitl [Hoth]; · iexact Hoth
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_B_4 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 344 := N_1; omega)]
  iintro ⟨⟨Hoth, HS0⟩, Hg⟩
  iapply (PhiA1_join c)
  isplitr [Hg]
  swap; · iexact Hg
  isplitl [Hoth]; · iexact Hoth
  iexists _; iexact HS0

end Entry

end Cert.KernelIdeal.R1

end
-- ==== Proof.KernelIdeal.Run.lean ====
/-
  The whole run of the program, for any float instance.

  The program is four items in a row: a stretch of host operations (the flattening of x to 4096 rows, the casts, the
  transposes of the second adapter factors and the two rank-16 row projections), the first region (the hidden
  activations), the second region (the result rows, accumulated over the hidden tiles), and one host operation (the
  reshape of the 4096 rows back to 2 × 2048). The contents of the core's buffers at the five boundaries are a fold from
  the launch memory: a host stretch leaves what its operations compute, a region leaves its windows' arrays at what its
  write-backs give and every other buffer as it found it. Region 0's only output array is main_v18, region 1's is
  main_v19, and no argument is written by anything, so each argument reads back through the fold to its launch contents.
  The run itself is the library's several-region launch over these boundary contents: between two items the core holds
  every unscoped buffer whole at the boundary's contents, its generator register at some state, and owes nothing.
-/
import proofs.«120860_j26250840113719_2_alg».proof.Proof.KernelIdeal.R0
import proofs.«120860_j26250840113719_2_alg».proof.Proof.KernelIdeal.R1
import proofs.«120860_j26250840113719_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers' contents at the five boundaries -/

/-- Core `c`'s buffers at launch (the generator registers play no part in them). -/
abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- After the first host stretch: what region 0 is entered from. -/
abbrev W1 : Dev nD → Valuation τ sig (Elt F) := fun c => StableHlo.after hostOps0 (W0 m ρ c)
/-- The same, read at the core's own references (what region 0's proof data take). -/
abbrev V1 : (c : Dev nD) → (b : Ref sig .tc) → Buf (Elt F) ((c : Thread nD τ).loc b) := fun c b => W1 m ρ c b
/-- After region 0: its windows' arrays at what its write-backs leave (an input's as entered, the output's every block
    written back), every other buffer as entered. Region 1 is entered from here: no host operation sits between the two. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
/-- The hidden activations' buffer after region 0: window 7's array with every block written back. -/
theorem W2_v18 (c : Dev nD) : W2 m ρ c (Proc.devRef .tc main_v18) = (R0.dat0 (V1 m ρ) c).arrAt 7 cfg0.N :=
  W2_arr m ρ c 7
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references (region 0's exit and region 1's entry contents). -/
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its windows' arrays at what its write-backs leave, every other buffer as entered. -/
def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w
/-- The result rows' buffer after region 1: window 4's array with every block written back. -/
theorem W3_v19 (c : Dev nD) : W3 m ρ c (Proc.devRef .tc main_v19) = (R1.dat1 (V2 m ρ) c).arrAt 4 cfg1.N :=
  W3_arr m ρ c 4
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references (region 1's exit contents). -/
abbrev V3 : (c : Dev nD) → (b : Ref sig .tc) → Buf (Elt F) ((c : Thread nD τ).loc b) := fun c b => W3 m ρ c b
theorem hF1 (c : Dev nD) (w : Fin cfg1.W) : (R1.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host operation (the reshape of the result rows): the contents the program returns with. -/
abbrev W4 : Dev nD → Valuation τ sig (Elt F) := fun c => StableHlo.after hostOps2 (W3 m ρ c)

/-! ### Every argument ends as launched

No host operation writes an argument and no window of either region has an argument for its array, so the fold at
an argument's buffer walks back, boundary by boundary, to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data of the two pipelines and what rides beside the buffers -/

/-- No pipeline has a prefetched table. -/
abbrev adm : (p : Fin 2) → (pcfgs (F := F) p).Adm := fun p => (cfgs p).toPCfg_adm
/-- Each pipeline's proof data at the contents its region is entered from (a literal case split on the pipeline's
    number, so that a numeral reduces to the region's own configuration). -/
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
/-- No core owes another anything, so no level is assigned. -/
abbrev L : GSem nD τ sig → Finset Unit := fun _ => ∅
abbrev lv : GSem nD τ sig → Unit → ℕ := fun _ _ => 0
/-- Beside the buffers, through every item: the core's generator register at some state and its dues, at nothing. -/
abbrev R (c : Dev nD) : sProp 𝕄 := iprop((∃ r, prngReg c r) ∗ ∃ W, owes (c : Thread nD τ) (0 : CellTallies nD τ sig Unit) W)
/-- A host stretch as an item of the run: every unscoped buffer from the contents `W` to the contents after the
    stretch's operations, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- Nor does the final reshape. -/
theorem hostOps2_fresh : (hostOps2 : List (HloOp τ sig (Elt F))).Forall fun op => op.fresh = ∅ := by
  simp only [List.Forall]; repeat' constructor
/-- An unscoped reference of the core is among those the boundary states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary's state without the dues: every unscoped buffer at `W4`, the generator register at some state. -/
abbrev Tₙ (c : Dev nD) : sProp 𝕄 := iprop(StableHlo.held (c : Thread nD τ) (Pipeline.ucRefs τ sig) (W4 m ρ c) ∗ ∃ r, prngReg c r)

/-- What the final reshape leaves is the last boundary's state beside the dues at nothing (the same three parts, regrouped). -/
theorem last_link (c : Dev nD) :
    iprop(StableHlo.held (c : Thread nD τ) (Pipeline.ucRefs τ sig) (W4 m ρ c) ∗ R (F := F) c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The two regions as items of the run -/

set_option backward.isDefEq.respectTransparency.types false in
/-- REGION 0, entered with every unscoped buffer at `W1` and left with them at `W2`: its eight arrays are split out of
    the unscoped buffers at entry and put back at their exit contents; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1, entered with every unscoped buffer at `W2` (what region 0 left) and left with them at `W3`. Its invariant
    follows the scratch accumulator from point to point, so it meets the class invariant only at the two ends: what the
    launch hands over is the invariant before the first point, and after the last point the class invariant is given back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (V2 m ρ) c)
    unfold Pipeline.ΦA
    iintro ⟨Hp, -, Hr⟩
    isplitl [Hr]; · iexact Hr
    iexact Hp
  hout c := by
    rw [Pipeline.ownSems0_none]
    refine BIBase.Entails.trans (R1.hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

/-- The four items in order: the host stretch from the launch contents, the two regions, the final reshape from what
    region 1 left. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program IS the run of the four items. -/
theorem main_run (c : Dev nD) : main (F := F) c = Pipeline.Seg.run (segs m ρ) := (main_chain c).trans (by chain_rfl)

set_option backward.isDefEq.respectTransparency.types false in
/-- THE RUN: from any memory with zero counters every weakly fair execution of the program terminates, and in every
    final state each unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every execution terminates and every final state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

/-- The run read at the returned buffer: it ends at the last boundary's contents there, the arguments as launched. -/
theorem run_v20 : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v20 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.KernelIdeal.Whole

end
-- ==== Proof.Spec.lean ====
/-
  The mathematics of the certificate, with no program in sight.

  A low-rank-adapted linear layer sends a row x : Fin K → EReal to the row
      h ↦ Σ_k x k · w h k  +  Σ_r (Σ_k x k · a r k) · b h r
  (the dense weight w : H × K, the adapter's factors a : R × K and b : H × R).  The gated feed-forward block applies two such
  layers to the same row, combines them entry by entry as (g · σ(g)) · u with σ the logistic function, and applies a third
  layer to the resulting row.  Everything is over the extended reals, where + and · are commutative and associative and
  nothing else is needed: no entry is assumed finite.
-/
import Idealize.ShloMosaic.PureOps.Ideal
import Idealize.ShloMosaic.Lib.ValueIdx

noncomputable section

open scoped BigOperators

namespace Cert.Mlp

open Idealize.ShloMosaic Idealize.ShloMosaic.ValueIdx

/-- The adapted linear layer on one row: the dense product plus the rank-R correction. -/
def lora {H K R : Nat} (w : Fin H → Fin K → EReal) (a : Fin R → Fin K → EReal) (b : Fin H → Fin R → EReal)
    (x : Fin K → EReal) (h : Fin H) : EReal :=
  (∑ k : Fin K, x k * w h k) + ∑ r : Fin R, (∑ k : Fin K, x k * a r k) * b h r

/-- The gate: g · σ(g) · u. -/
def glu (g u : EReal) : EReal := (g * Ideal.logistic g) * u

/-- The hidden row of the block: the gated combination of the two adapted layers of the row x. -/
def hiddenRow {H K R : Nat} (gw uw : Fin H → Fin K → EReal) (ga ua : Fin R → Fin K → EReal) (gb ub : Fin H → Fin R → EReal)
    (x : Fin K → EReal) (h : Fin H) : EReal :=
  glu (lora gw ga gb x h) (lora uw ua ub x h)

/-- The block on one row. -/
def blockRow {H K R : Nat} (gw uw : Fin H → Fin K → EReal) (dw : Fin K → Fin H → EReal)
    (ga ua : Fin R → Fin K → EReal) (gb ub : Fin H → Fin R → EReal) (da : Fin R → Fin H → EReal) (db : Fin K → Fin R → EReal)
    (x : Fin K → EReal) (d : Fin K) : EReal :=
  lora dw da db (hiddenRow gw uw ga ua gb ub x) d

/-! ## The arrays of this certificate: 2 × 2048 rows of 4096 entries, hidden width 11008, rank 16 -/

abbrev A3 : Type := (⟨3, ![2, 2048, 4096]⟩ : Shape).Idx → EReal
abbrev Ahk : Type := (⟨2, ![11008, 4096]⟩ : Shape).Idx → EReal
abbrev Akh : Type := (⟨2, ![4096, 11008]⟩ : Shape).Idx → EReal
abbrev Ark : Type := (⟨2, ![16, 4096]⟩ : Shape).Idx → EReal
abbrev Ahr : Type := (⟨2, ![11008, 16]⟩ : Shape).Idx → EReal
abbrev Arh : Type := (⟨2, ![16, 11008]⟩ : Shape).Idx → EReal
abbrev Akr : Type := (⟨2, ![4096, 16]⟩ : Shape).Idx → EReal
abbrev Amk : Type := (⟨2, ![4096, 4096]⟩ : Shape).Idx → EReal
abbrev Amh : Type := (⟨2, ![4096, 11008]⟩ : Shape).Idx → EReal
abbrev Amr : Type := (⟨2, ![4096, 16]⟩ : Shape).Idx → EReal

/-- A rank-2 array as a function of its two coordinates. -/
abbrev at2 {n0 n1 : Nat} (f : (⟨2, ![n0, n1]⟩ : Shape).Idx → EReal) (p : Fin n0) (q : Fin n1) : EReal := f (ix2 p q)

/-- THE RESULT: entry (b, s, d) is the block applied to row (b, s) of x, at d. -/
def G (x : A3) (gw uw : Ahk) (dw : Akh) (ga : Ark) (gb : Ahr) (ua : Ark) (ub : Ahr) (da : Arh) (db : Akr) : A3 :=
  fun i => blockRow (at2 gw) (at2 uw) (at2 dw) (at2 ga) (at2 ua) (at2 gb) (at2 ub) (at2 da) (at2 db)
    (fun k => x (ix3 (i 0 : Fin 2) (i 1 : Fin 2048) k)) (i 2 : Fin 4096)

theorem G_apply (x : A3) (gw uw : Ahk) (dw : Akh) (ga : Ark) (gb : Ahr) (ua : Ark) (ub : Ahr) (da : Arh) (db : Akr)
    (b : Fin 2) (s : Fin 2048) (d : Fin 4096) :
    G x gw uw dw ga gb ua ub da db (ix3 b s d)
      = blockRow (at2 gw) (at2 uw) (at2 dw) (at2 ga) (at2 ua) (at2 gb) (at2 ub) (at2 da) (at2 db)
          (fun k => x (ix3 b s k)) d := rfl

/-! ## The two stages as the kernel arranges them: rows flattened to 4096, the adapter's row projections given, the
    second factors transposed -/

/-- Stage one over flattened rows: x2 is the 4096 × 4096 matrix of rows, xa and xu the rows' rank-16 projections
    (m, r) ↦ Σ_k x2(m,k) · a(r,k), gbT and ubT the second factors laid out as R × H. Entry (m, h) is the gated pair. -/
def hidden2 (x2 : Amk) (gw uw : Ahk) (xa xu : Amr) (gbT ubT : Arh) : Amh :=
  fun i =>
    glu ((∑ k : Fin 4096, x2 (ix2 (i 0 : Fin 4096) k) * gw (ix2 (i 1 : Fin 11008) k))
          + ∑ r : Fin 16, xa (ix2 (i 0 : Fin 4096) r) * gbT (ix2 r (i 1 : Fin 11008)))
        ((∑ k : Fin 4096, x2 (ix2 (i 0 : Fin 4096) k) * uw (ix2 (i 1 : Fin 11008) k))
          + ∑ r : Fin 16, xu (ix2 (i 0 : Fin 4096) r) * ubT (ix2 r (i 1 : Fin 11008)))

theorem hidden2_apply (x2 : Amk) (gw uw : Ahk) (xa xu : Amr) (gbT ubT : Arh) (m : Fin 4096) (h : Fin 11008) :
    hidden2 x2 gw uw xa xu gbT ubT (ix2 m h)
      = glu ((∑ k : Fin 4096, x2 (ix2 m k) * gw (ix2 h k)) + ∑ r : Fin 16, xa (ix2 m r) * gbT (ix2 r h))
            ((∑ k : Fin 4096, x2 (ix2 m k) * uw (ix2 h k)) + ∑ r : Fin 16, xu (ix2 m r) * ubT (ix2 r h)) := rfl

/-- Stage two over flattened rows: hid is the 4096 × 11008 hidden matrix, dbT the second factor laid out as R × K. -/
def down2 (hid : Amh) (dw : Akh) (da : Arh) (dbT : Ark) : Amk :=
  fun i =>
    (∑ h : Fin 11008, hid (ix2 (i 0 : Fin 4096) h) * dw (ix2 (i 1 : Fin 4096) h))
      + ∑ r : Fin 16, (∑ h : Fin 11008, hid (ix2 (i 0 : Fin 4096) h) * da (ix2 r h)) * dbT (ix2 r (i 1 : Fin 4096))

theorem down2_apply (hid : Amh) (dw : Akh) (da : Arh) (dbT : Ark) (m d : Fin 4096) :
    down2 hid dw da dbT (ix2 m d)
      = (∑ h : Fin 11008, hid (ix2 m h) * dw (ix2 d h))
          + ∑ r : Fin 16, (∑ h : Fin 11008, hid (ix2 m h) * da (ix2 r h)) * dbT (ix2 r d) := rfl

end Cert.Mlp

end
-- ==== Proof.Value.RefValue.lean ====
/-
  The reference side of the certificate: the reference program's result, at the extended reals, is the specification's
  function G of its ten argument arrays.

  The reference computes, on the three-dimensional arrays, gate = x·gate_wᵀ + ((x·gate_aᵀ)·gate_bᵀ)·1.0, up likewise,
  hidden = (gate · (1.0 / (1.0 + exp(−gate)))) · up, and result = hidden·down_wᵀ + ((hidden·down_aᵀ)·down_bᵀ)·1.0. Every product
  contracts the last axis of both operands, so entry (b, s, j) of a product is the sum over k of the left operand at
  (b, s, k) times the right operand at (j, k). Read at an index (b, s, ·), each stage is therefore a function of row (b, s) of
  x alone: the gate and up stages are the adapted linear layer of that row, the hidden stage its gated combination (the
  factor 1/(1+e^(−g)) IS the logistic function, by definition), and the result the third adapted layer of the hidden row.
  The scalings by 1.0 are the identity (x · 1 = x on the extended reals). No entry is assumed finite and no sum is reordered.
-/
import proofs.«120860_j26250840113719_2_alg».proof.Proof.Gen.ReferenceIdeal.Read
import proofs.«120860_j26250840113719_2_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Value Cert.ReferenceIdeal.Read

/-! ## The word of 1.0 and the index maps of the contractions

Every product of the reference contracts the last axis of its left operand with the last axis of its right operand:
entry (b, s, j) of the result reads row (b, s) of the left operand and row j of the right one. -/

/-- The single-precision word of 1.0 denotes the extended real 1. -/
theorem one_f32 : FloatOps.ofBits (F := Ideal) .f32 0x3F800000#32 = 1 := by
  rw [Ideal.ofBits_def]
  simp [Ideal.ofBits, Ideal.ieee, -EReal.coe_mul]
  norm_num

theorem lidx_v0 (b : Fin 2) (s : Fin 2048) (h : Fin 11008) (k : Fin 4096) :
    lidx_main_v0 (ix3 b s h) k = ix3 b s k :=
  funext fun a => Fin.ext (by match a with | ⟨0, _⟩ => rfl | ⟨1, _⟩ => rfl | ⟨2, _⟩ => rfl)
theorem ridx_v0 (b : Fin 2) (s : Fin 2048) (h : Fin 11008) (k : Fin 4096) :
    ridx_main_v0 (ix3 b s h) k = ix2 h k :=
  funext fun a => Fin.ext (by match a with | ⟨0, _⟩ => rfl | ⟨1, _⟩ => rfl)
theorem lidx_v6 (b : Fin 2) (s : Fin 2048) (h : Fin 11008) (k : Fin 4096) :
    lidx_main_v6 (ix3 b s h) k = ix3 b s k :=
  funext fun a => Fin.ext (by match a with | ⟨0, _⟩ => rfl | ⟨1, _⟩ => rfl | ⟨2, _⟩ => rfl)
theorem ridx_v6 (b : Fin 2) (s : Fin 2048) (h : Fin 11008) (k : Fin 4096) :
    ridx_main_v6 (ix3 b s h) k = ix2 h k :=
  funext fun a => Fin.ext (by match a with | ⟨0, _⟩ => rfl | ⟨1, _⟩ => rfl)
theorem lidx_v1 (b : Fin 2) (s : Fin 2048) (r : Fin 16) (k : Fin 4096) :
    lidx_main_v1 (ix3 b s r) k = ix3 b s k :=
  funext fun a => Fin.ext (by match a with | ⟨0, _⟩ => rfl | ⟨1, _⟩ => rfl | ⟨2, _⟩ => rfl)
theorem ridx_v1 (b : Fin 2) (s : Fin 2048) (r : Fin 16) (k : Fin 4096) :
    ridx_main_v1 (ix3 b s r) k = ix2 r k :=
  funext fun a => Fin.ext (by match a with | ⟨0, _⟩ => rfl | ⟨1, _⟩ => rfl)
theorem lidx_v7 (b : Fin 2) (s : Fin 2048) (r : Fin 16) (k : Fin 4096) :
    lidx_main_v7 (ix3 b s r) k = ix3 b s k :=
  funext fun a => Fin.ext (by match a with | ⟨0, _⟩ => rfl | ⟨1, _⟩ => rfl | ⟨2, _⟩ => rfl)
theorem ridx_v7 (b : Fin 2) (s : Fin 2048) (r : Fin 16) (k : Fin 4096) :
    ridx_main_v7 (ix3 b s r) k = ix2 r k :=
  funext fun a => Fin.ext (by match a with | ⟨0, _⟩ => rfl | ⟨1, _⟩ => rfl)
theorem lidx_v2 (b : Fin 2) (s : Fin 2048) (h : Fin 11008) (k : Fin 16) :
    lidx_main_v2 (ix3 b s h) k = ix3 b s k :=
  funext fun a => Fin.ext (by match a with | ⟨0, _⟩ => rfl | ⟨1, _⟩ => rfl | ⟨2, _⟩ => rfl)
theorem ridx_v2 (b : Fin 2) (s : Fin 2048) (h : Fin 11008) (k : Fin 16) :
    ridx_main_v2 (ix3 b s h) k = ix2 h k :=
  funext fun a => Fin.ext (by match a with | ⟨0, _⟩ => rfl | ⟨1, _⟩ => rfl)
theorem lidx_v8 (b : Fin 2) (s : Fin 2048) (h : Fin 11008) (k : Fin 16) :
    lidx_main_v8 (ix3 b s h) k = ix3 b s k :=
  funext fun a => Fin.ext (by match a with | ⟨0, _⟩ => rfl | ⟨1, _⟩ => rfl | ⟨2, _⟩ => rfl)
theorem ridx_v8 (b : Fin 2) (s : Fin 2048) (h : Fin 11008) (k : Fin 16) :
    ridx_main_v8 (ix3 b s h) k = ix2 h k :=
  funext fun a => Fin.ext (by match a with | ⟨0, _⟩ => rfl | ⟨1, _⟩ => rfl)
theorem lidx_v14 (b : Fin 2) (s : Fin 2048) (d : Fin 4096) (k : Fin 11008) :
    lidx_main_v14 (ix3 b s d) k = ix3 b s k :=
  funext fun a => Fin.ext (by match a with | ⟨0, _⟩ => rfl | ⟨1, _⟩ => rfl | ⟨2, _⟩ => rfl)
theorem ridx_v14 (b : Fin 2) (s : Fin 2048) (d : Fin 4096) (k : Fin 11008) :
    ridx_main_v14 (ix3 b s d) k = ix2 d k :=
  funext fun a => Fin.ext (by match a with | ⟨0, _⟩ => rfl | ⟨1, _⟩ => rfl)
theorem lidx_v15 (b : Fin 2) (s : Fin 2048) (r : Fin 16) (k : Fin 11008) :
    lidx_main_v15 (ix3 b s r) k = ix3 b s k :=
  funext fun a => Fin.ext (by match a with | ⟨0, _⟩ => rfl | ⟨1, _⟩ => rfl | ⟨2, _⟩ => rfl)
theorem ridx_v15 (b : Fin 2) (s : Fin 2048) (r : Fin 16) (k : Fin 11008) :
    ridx_main_v15 (ix3 b s r) k = ix2 r k :=
  funext fun a => Fin.ext (by match a with | ⟨0, _⟩ => rfl | ⟨1, _⟩ => rfl)
theorem lidx_v16 (b : Fin 2) (s : Fin 2048) (d : Fin 4096) (k : Fin 16) :
    lidx_main_v16 (ix3 b s d) k = ix3 b s k :=
  funext fun a => Fin.ext (by match a with | ⟨0, _⟩ => rfl | ⟨1, _⟩ => rfl | ⟨2, _⟩ => rfl)
theorem ridx_v16 (b : Fin 2) (s : Fin 2048) (d : Fin 4096) (k : Fin 16) :
    ridx_main_v16 (ix3 b s d) k = ix2 d k :=
  funext fun a => Fin.ext (by match a with | ⟨0, _⟩ => rfl | ⟨1, _⟩ => rfl)

/-! ## The two adapted layers of the hidden row -/

/-- The gate layer's dense product at (b, s, h): the sum over k of x(b,s,k) · w(h,k). -/
theorem v0_at (x0 : (⟨S2x2048x4096, .f32⟩ : BufTy).Contents (Elt Ideal)) (x1 : (⟨S11008x4096, .f32⟩ : BufTy).Contents (Elt Ideal)) (b : Fin 2) (s : Fin 2048) (h : Fin 11008) :
    val_main_v0 (F := Ideal) x0 x1 (ix3 b s h) = ∑ k : Fin 4096, x0 (ix3 b s k) * x1 (ix2 h k) := by
  rw [val_main_v0_apply]
  simp only [lidx_v0, ridx_v0]

/-- The gate layer's rank-16 projection at (b, s, r): the sum over k of x(b,s,k) · a(r,k). -/
theorem v1_at (x0 : (⟨S2x2048x4096, .f32⟩ : BufTy).Contents (Elt Ideal)) (x4 : (⟨S16x4096, .f32⟩ : BufTy).Contents (Elt Ideal)) (b : Fin 2) (s : Fin 2048) (r : Fin 16) :
    val_main_v1 (F := Ideal) x0 x4 (ix3 b s r) = ∑ k : Fin 4096, x0 (ix3 b s k) * x4 (ix2 r k) := by
  rw [val_main_v1_apply]
  simp only [lidx_v1, ridx_v1]

/-- The gate layer's correction at (b, s, h): the sum over r of the projection at (b,s,r) times b(h,r). -/
theorem v2_at (x0 : (⟨S2x2048x4096, .f32⟩ : BufTy).Contents (Elt Ideal)) (x4 : (⟨S16x4096, .f32⟩ : BufTy).Contents (Elt Ideal)) (x5 : (⟨S11008x16, .f32⟩ : BufTy).Contents (Elt Ideal)) (b : Fin 2) (s : Fin 2048) (h : Fin 11008) :
    val_main_v2 (F := Ideal) x0 x4 x5 (ix3 b s h)
      = ∑ r : Fin 16, (∑ k : Fin 4096, x0 (ix3 b s k) * x4 (ix2 r k)) * x5 (ix2 h r) := by
  rw [val_main_v2_apply]
  simp only [lidx_v2, ridx_v2, v1_at]

/-- The gate layer at (b, s, h) is the adapted linear layer of row (b, s) of x: the scaling by 1.0 is the identity. -/
theorem v5_at (x0 : (⟨S2x2048x4096, .f32⟩ : BufTy).Contents (Elt Ideal)) (x1 : (⟨S11008x4096, .f32⟩ : BufTy).Contents (Elt Ideal)) (x4 : (⟨S16x4096, .f32⟩ : BufTy).Contents (Elt Ideal)) (x5 : (⟨S11008x16, .f32⟩ : BufTy).Contents (Elt Ideal)) (b : Fin 2) (s : Fin 2048) (h : Fin 11008) :
    val_main_v5 (F := Ideal) x0 x1 x4 x5 (ix3 b s h)
      = Cert.Mlp.lora (Cert.Mlp.at2 x1) (Cert.Mlp.at2 x4) (Cert.Mlp.at2 x5) (fun k => x0 (ix3 b s k)) h := by
  rw [val_main_v5_apply, val_main_v4_apply, val_main_v3_apply, val_main_cst_apply, v0_at, v2_at]
  simp only [Ideal.addf_def, Ideal.mulf_def, one_f32, mul_one]
  rfl

/-- The up layer's dense product at (b, s, h): the sum over k of x(b,s,k) · w(h,k). -/
theorem v6_at (x0 : (⟨S2x2048x4096, .f32⟩ : BufTy).Contents (Elt Ideal)) (x2 : (⟨S11008x4096, .f32⟩ : BufTy).Contents (Elt Ideal)) (b : Fin 2) (s : Fin 2048) (h : Fin 11008) :
    val_main_v6 (F := Ideal) x0 x2 (ix3 b s h) = ∑ k : Fin 4096, x0 (ix3 b s k) * x2 (ix2 h k) := by
  rw [val_main_v6_apply]
  simp only [lidx_v6, ridx_v6]

/-- The up layer's rank-16 projection at (b, s, r): the sum over k of x(b,s,k) · a(r,k). -/
theorem v7_at (x0 : (⟨S2x2048x4096, .f32⟩ : BufTy).Contents (Elt Ideal)) (x6 : (⟨S16x4096, .f32⟩ : BufTy).Contents (Elt Ideal)) (b : Fin 2) (s : Fin 2048) (r : Fin 16) :
    val_main_v7 (F := Ideal) x0 x6 (ix3 b s r) = ∑ k : Fin 4096, x0 (ix3 b s k) * x6 (ix2 r k) := by
  rw [val_main_v7_apply]
  simp only [lidx_v7, ridx_v7]

/-- The up layer's correction at (b, s, h): the sum over r of the projection at (b,s,r) times b(h,r). -/
theorem v8_at (x0 : (⟨S2x2048x4096, .f32⟩ : BufTy).Contents (Elt Ideal)) (x6 : (⟨S16x4096, .f32⟩ : BufTy).Contents (Elt Ideal)) (x7 : (⟨S11008x16, .f32⟩ : BufTy).Contents (Elt Ideal)) (b : Fin 2) (s : Fin 2048) (h : Fin 11008) :
    val_main_v8 (F := Ideal) x0 x6 x7 (ix3 b s h)
      = ∑ r : Fin 16, (∑ k : Fin 4096, x0 (ix3 b s k) * x6 (ix2 r k)) * x7 (ix2 h r) := by
  rw [val_main_v8_apply]
  simp only [lidx_v8, ridx_v8, v7_at]

/-- The up layer at (b, s, h) is the adapted linear layer of row (b, s) of x: the scaling by 1.0 is the identity. -/
theorem v11_at (x0 : (⟨S2x2048x4096, .f32⟩ : BufTy).Contents (Elt Ideal)) (x2 : (⟨S11008x4096, .f32⟩ : BufTy).Contents (Elt Ideal)) (x6 : (⟨S16x4096, .f32⟩ : BufTy).Contents (Elt Ideal)) (x7 : (⟨S11008x16, .f32⟩ : BufTy).Contents (Elt Ideal)) (b : Fin 2) (s : Fin 2048) (h : Fin 11008) :
    val_main_v11 (F := Ideal) x0 x2 x6 x7 (ix3 b s h)
      = Cert.Mlp.lora (Cert.Mlp.at2 x2) (Cert.Mlp.at2 x6) (Cert.Mlp.at2 x7) (fun k => x0 (ix3 b s k)) h := by
  rw [val_main_v11_apply, val_main_v10_apply, val_main_v9_apply, val_main_cst_0_apply, v6_at, v8_at]
  simp only [Ideal.addf_def, Ideal.mulf_def, one_f32, mul_one]
  rfl

/-! ## The gated combination -/

/-- g · (1 / (1 + e^(-g))) · u, in the host's operations, is the gate of the specification: the factor is the logistic
    function by its definition. -/
theorem silu_eq (g u : Ideal .f32) :
    FloatOps.mulf (FloatOps.mulf g (FloatOps.hostDivf (1 : Ideal .f32) (FloatOps.addf 1 (FloatOps.hostUnary .exp (FloatOps.hostNegf g))))) u
      = Cert.Mlp.glu g u := rfl

/-- The hidden array at (b, s, h) is the hidden row of row (b, s) of x, at h. -/
theorem v13_at (x0 : (⟨S2x2048x4096, .f32⟩ : BufTy).Contents (Elt Ideal)) (x1 : (⟨S11008x4096, .f32⟩ : BufTy).Contents (Elt Ideal)) (x2 : (⟨S11008x4096, .f32⟩ : BufTy).Contents (Elt Ideal)) (x4 : (⟨S16x4096, .f32⟩ : BufTy).Contents (Elt Ideal)) (x5 : (⟨S11008x16, .f32⟩ : BufTy).Contents (Elt Ideal)) (x6 : (⟨S16x4096, .f32⟩ : BufTy).Contents (Elt Ideal)) (x7 : (⟨S11008x16, .f32⟩ : BufTy).Contents (Elt Ideal)) (b : Fin 2) (s : Fin 2048) (h : Fin 11008) :
    val_main_v13 (F := Ideal) x0 x1 x2 x4 x5 x6 x7 (ix3 b s h)
      = Cert.Mlp.hiddenRow (Cert.Mlp.at2 x1) (Cert.Mlp.at2 x2) (Cert.Mlp.at2 x4) (Cert.Mlp.at2 x6) (Cert.Mlp.at2 x5) (Cert.Mlp.at2 x7)
          (fun k => x0 (ix3 b s k)) h := by
  rw [val_main_v13_apply, val_main_v12_apply, val_main_call0_v5_apply, val_main_call0_v4_apply, val_main_call0_cst_0_apply,
    val_main_call0_v3_apply, val_main_call0_v2_apply, val_main_call0_cst_apply, val_main_call0_v1_apply, val_main_call0_v0_apply,
    v5_at, v11_at]
  simp only [one_f32]
  unfold Cert.Mlp.hiddenRow
  exact silu_eq _ _

/-! ## The third layer and the result -/

/-- The result at (b, s, d) is the block applied to row (b, s) of x, at d. -/
theorem v19_at (x0 : (⟨S2x2048x4096, .f32⟩ : BufTy).Contents (Elt Ideal)) (x1 : (⟨S11008x4096, .f32⟩ : BufTy).Contents (Elt Ideal)) (x2 : (⟨S11008x4096, .f32⟩ : BufTy).Contents (Elt Ideal)) (x3 : (⟨S4096x11008, .f32⟩ : BufTy).Contents (Elt Ideal)) (x4 : (⟨S16x4096, .f32⟩ : BufTy).Contents (Elt Ideal)) (x5 : (⟨S11008x16, .f32⟩ : BufTy).Contents (Elt Ideal)) (x6 : (⟨S16x4096, .f32⟩ : BufTy).Contents (Elt Ideal)) (x7 : (⟨S11008x16, .f32⟩ : BufTy).Contents (Elt Ideal)) (x8 : (⟨S16x11008, .f32⟩ : BufTy).Contents (Elt Ideal)) (x9 : (⟨S4096x16, .f32⟩ : BufTy).Contents (Elt Ideal)) (b : Fin 2) (s : Fin 2048) (d : Fin 4096) :
    val_main_v19 (F := Ideal) x0 x1 x2 x3 x4 x5 x6 x7 x8 x9 (ix3 b s d)
      = Cert.Mlp.blockRow (Cert.Mlp.at2 x1) (Cert.Mlp.at2 x2) (Cert.Mlp.at2 x3) (Cert.Mlp.at2 x4) (Cert.Mlp.at2 x6) (Cert.Mlp.at2 x5)
          (Cert.Mlp.at2 x7) (Cert.Mlp.at2 x8) (Cert.Mlp.at2 x9) (fun k => x0 (ix3 b s k)) d := by
  rw [val_main_v19_apply, val_main_v18_apply, val_main_v17_apply, val_main_cst_1_apply, val_main_v14_apply, val_main_v16_apply]
  simp only [lidx_v14, ridx_v14, lidx_v16, ridx_v16, val_main_v15_apply, lidx_v15, ridx_v15, v13_at, Ideal.addf_def, Ideal.mulf_def,
    one_f32, mul_one]
  rfl

/-- THE REFERENCE IS THE SPECIFICATION: the reference run's result term, at the extended reals, is G of the ten
    argument arrays as the run finds them. -/
theorem ref_eq (m : (ℓ : Loc nD τ sig) → Buf (Elt Ideal) ℓ) (c : Dev nD) :
    (Cert.ReferenceIdeal.Value.res_out0 (F := Ideal) m c : S2x2048x4096.Idx → EReal)
      = Cert.Mlp.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  funext i
  obtain ⟨b, s, d, rfl⟩ : ∃ (b : Fin 2) (s : Fin 2048) (d : Fin 4096), i = ix3 b s d := ⟨i 0, i 1, i 2, eq_ix3 i⟩
  rw [Cert.Mlp.G_apply]
  show Cert.ReferenceIdeal.Value.res_main_v19 (F := Ideal) m c (ix3 b s d) = _
  rw [val_main_v19_eq]
  exact v19_at _ _ _ _ _ _ _ _ _ _ b s d

/-! ## The reference's frame -/

/-- Every execution of the reference leaves its ten arguments as it found them (the second part of the run's statement). -/
theorem frame_ri_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run Cert.ReferenceIdeal.defs _ _).mono (fun _ h c => (h c).2) (Cert.ReferenceIdeal.Value.run (F := Ideal) m ρ)

end Cert.ReferenceIdeal.RefValue

end
-- ==== Proof.LibTransDot.lean ====
/-
  A matrix product with the right operand transposed, read at an index, over the extended reals.

  For the dimension numbers of an M×K by N×K product (contract the left operand's second axis with the
  right operand's second axis; no batch axes: lhs · rhsᵀ) the entry (i, j) of the product is the sum over k of
  lhs (i, k) · rhs (j, k): stated once for a `tpu.matmul` accumulating into the zero splat and once for the
  host's `dot_general`, for any extents M, K, N. The contraction index of such a product has one axis of
  extent K, and the sum over it is re-indexed by that coordinate.
-/
import Idealize.ShloMosaic.Lib.ValueIdx
import Idealize.ShloMosaic.PureOps.Ideal.Laws

noncomputable section

open scoped BigOperators

namespace Idealize.ShloMosaic.TransDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransDot

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Value.R0Value.lean ====
/-
  The first kernel region's result over the extended reals: after the region the hidden array holds, at every entry
  (m, h), the gated pair of the two adapted products of row m of the flattened input with row h of the gate weight and
  of the up weight. Grid point t works on row tile t mod 8 (512 rows) and hidden tile t / 8 (256 columns): entry
  (p, q) of the block it writes back is the body's arithmetic on row p of its input blocks and row q, or column q, of
  its weight blocks, which is entry (512·(t mod 8) + p, 256·(t / 8) + q) of the hidden matrix; the 344 blocks tile the
  4096 × 11008 array.
-/
import proofs.«120860_j26250840113719_2_alg».proof.Proof.KernelIdeal.R0
import proofs.«120860_j26250840113719_2_alg».proof.Proof.Spec
import proofs.«120860_j26250840113719_2_alg».proof.Proof.LibTransDot
import proofs.«120860_j26250840113719_2_alg».proof.Proof.LibPlainDot
import Idealize.ShloMosaic.Lib.Pipeline.Value

set_option maxRecDepth 16384

noncomputable section
open scoped BigOperators
namespace Cert.KernelIdeal.R0Value

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)

/-! ## The body's payload at an entry -/

/-- Entry (p, q) of the payload: the gated pair of the two adapted products of row p of the first block with rows q of
    the weight blocks, each plus the rank-16 correction from the projected rows and the second factors' column q. -/
theorem pay_apply (x0 : Vec Ideal S512x4096 .bf16) (x1 x2 : Vec Ideal S256x4096 .bf16) (x3 x4 : Vec Ideal S512x16 .bf16)
    (x5 x6 : Vec Ideal S16x256 .bf16) (p : Fin 512) (q : Fin 256) :
    k0_pay1 x0 x1 x2 x3 x4 x5 x6 (ix2 p q)
      = Cert.Mlp.glu ((∑ k : Fin 4096, x0 (ix2 p k) * x1 (ix2 q k)) + ∑ r : Fin 16, x3 (ix2 p r) * x5 (ix2 r q))
          ((∑ k : Fin 4096, x0 (ix2 p k) * x2 (ix2 q k)) + ∑ r : Fin 16, x4 (ix2 p r) * x6 (ix2 r q)) := by
  have hA := TransDot.matmul_zero_apply (M := 512) (K := 4096) (N := 256) (φ₁ := .bf16) (φ₂ := .bf16) none x0 x1 p q
  have hC := TransDot.matmul_zero_apply (M := 512) (K := 4096) (N := 256) (φ₁ := .bf16) (φ₂ := .bf16) none x0 x2 p q
  have hB := PlainDot.matmul_zero_apply (M := 512) (K := 16) (N := 256) (φ₁ := .bf16) (φ₂ := .bf16) none x3 x5 p q
  have hD := PlainDot.matmul_zero_apply (M := 512) (K := 16) (N := 256) (φ₁ := .bf16) (φ₂ := .bf16) none x4 x6 p q
  rw [← hA, ← hB, ← hC, ← hD]
  unfold k0_pay1
  simp only [shapeCast_self]
  rfl

/-- When the seven blocks are the rows m of the flattened input and of its two projections, the rows h of the two
    weights and the columns h of the two second factors, entry (p, q) of the payload is entry (m, h) of the hidden
    matrix. -/
theorem pay_block (X : Cert.Mlp.Amk) (GW UW : Cert.Mlp.Ahk) (XA XU : Cert.Mlp.Amr) (GB UB : Cert.Mlp.Arh)
    (x0 : Vec Ideal S512x4096 .bf16) (x1 x2 : Vec Ideal S256x4096 .bf16) (x3 x4 : Vec Ideal S512x16 .bf16)
    (x5 x6 : Vec Ideal S16x256 .bf16) (p : Fin 512) (q : Fin 256) (m : Fin 4096) (h : Fin 11008)
    (h0 : ∀ k, x0 (ix2 p k) = X (ix2 m k)) (h1 : ∀ k, x1 (ix2 q k) = GW (ix2 h k)) (h2 : ∀ k, x2 (ix2 q k) = UW (ix2 h k))
    (h3 : ∀ r, x3 (ix2 p r) = XA (ix2 m r)) (h4 : ∀ r, x4 (ix2 p r) = XU (ix2 m r))
    (h5 : ∀ r, x5 (ix2 r q) = GB (ix2 r h)) (h6 : ∀ r, x6 (ix2 r q) = UB (ix2 r h)) :
    k0_pay1 x0 x1 x2 x3 x4 x5 x6 (ix2 p q) = Cert.Mlp.hidden2 X GW UW XA XU GB UB (ix2 m h) := by
  rw [pay_apply, Cert.Mlp.hidden2_apply]
  simp only [h0, h1, h2, h3, h4, h5, h6]

/-! ## The windows' block indices over the grid -/

theorem hz : (![0, 0] : Fin 2 → Nat) = fun _ => 0 := funext fun a => by fin_cases a <;> rfl

/-- Point t has row tile t mod 8 and hidden tile t / 8: the input, its two projections and the output move with the
    row tile, the weights and the second factors with the hidden tile. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val % 8 ∧ win0_4.index t (1 : Fin 2) = 0
    ∧ win0_5.index t (0 : Fin 2) = 0 ∧ win0_5.index t (1 : Fin 2) = t.val / 8
    ∧ win0_6.index t (0 : Fin 2) = 0 ∧ win0_6.index t (1 : Fin 2) = t.val / 8
    ∧ win0_7.index t (0 : Fin 2) = t.val % 8 ∧ win0_7.index t (1 : Fin 2) = t.val / 8 :=
  (by decide +kernel : ∀ t : Fin grid0.N, _)

section Region
variable (V : (c : Dev nD) → (b : Ref sig .tc) → Buf (Elt Ideal) ((c : Thread nD τ).loc b))

/-! ## Each input block as entries of its array -/

/-- Window 0's block at point t is rows 512·(t mod 8) … of the flattened input. -/
theorem iblk0_0_apply (c : Dev nD) (t : Fin cfg0.N) (x : S512x4096.Idx) (k : S4096x4096.Idx)
    (hk0 : (k 0).val = 512 * (t.val % 8) + (x 0).val) (hk1 : (k 1).val = (x 1).val) :
    (iblk0 V c 0 t : Vec Ideal S512x4096 .bf16) x = (V c main_v1 : S4096x4096.Idx → EReal) k := by
  obtain ⟨e0_0, e0_1, e1_0, e1_1, e2_0, e2_1, e3_0, e3_1, e4_0, e4_1, e5_0, e5_1, e6_0, e6_1, e7_0, e7_1⟩ := idx_facts t
  unfold iblk0
  rw [View.read_apply]
  show V c main_v1 _ = V c main_v1 _
  congr 1
  funext a
  apply Fin.ext
  match a with
  | ⟨0, _⟩ => show win0_0.index t 0 * 512 + 1 * (x 0).val = (k 0).val; rw [e0_0, hk0]; omega
  | ⟨1, _⟩ => show win0_0.index t 1 * 4096 + 1 * (x 1).val = (k 1).val; rw [e0_1, hk1]; omega

/-- Window 1's block at point t is rows 256·(t / 8) … of the gate weight. -/
theorem iblk0_1_apply (c : Dev nD) (t : Fin cfg0.N) (x : S256x4096.Idx) (k : S11008x4096.Idx)
    (hk0 : (k 0).val = 256 * (t.val / 8) + (x 0).val) (hk1 : (k 1).val = (x 1).val) :
    (iblk0 V c 1 t : Vec Ideal S256x4096 .bf16) x = (V c main_v2 : S11008x4096.Idx → EReal) k := by
  obtain ⟨e0_0, e0_1, e1_0, e1_1, e2_0, e2_1, e3_0, e3_1, e4_0, e4_1, e5_0, e5_1, e6_0, e6_1, e7_0, e7_1⟩ := idx_facts t
  unfold iblk0
  rw [View.read_apply]
  show V c main_v2 _ = V c main_v2 _
  congr 1
  funext a
  apply Fin.ext
  match a with
  | ⟨0, _⟩ => show win0_1.index t 0 * 256 + 1 * (x 0).val = (k 0).val; rw [e1_0, hk0]; omega
  | ⟨1, _⟩ => show win0_1.index t 1 * 4096 + 1 * (x 1).val = (k 1).val; rw [e1_1, hk1]; omega

/-- Window 2's block at point t is rows 256·(t / 8) … of the up weight. -/
theorem iblk0_2_apply (c : Dev nD) (t : Fin cfg0.N) (x : S256x4096.Idx) (k : S11008x4096.Idx)
    (hk0 : (k 0).val = 256 * (t.val / 8) + (x 0).val) (hk1 : (k 1).val = (x 1).val) :
    (iblk0 V c 2 t : Vec Ideal S256x4096 .bf16) x = (V c main_v3 : S11008x4096.Idx → EReal) k := by
  obtain ⟨e0_0, e0_1, e1_0, e1_1, e2_0, e2_1, e3_0, e3_1, e4_0, e4_1, e5_0, e5_1, e6_0, e6_1, e7_0, e7_1⟩ := idx_facts t
  unfold iblk0
  rw [View.read_apply]
  show V c main_v3 _ = V c main_v3 _
  congr 1
  funext a
  apply Fin.ext
  match a with
  | ⟨0, _⟩ => show win0_2.index t 0 * 256 + 1 * (x 0).val = (k 0).val; rw [e2_0, hk0]; omega
  | ⟨1, _⟩ => show win0_2.index t 1 * 4096 + 1 * (x 1).val = (k 1).val; rw [e2_1, hk1]; omega

/-- Window 3's block at point t is rows 512·(t mod 8) … of the gate projection. -/
theorem iblk0_3_apply (c : Dev nD) (t : Fin cfg0.N) (x : S512x16.Idx) (k : S4096x16.Idx)
    (hk0 : (k 0).val = 512 * (t.val % 8) + (x 0).val) (hk1 : (k 1).val = (x 1).val) :
    (iblk0 V c 3 t : Vec Ideal S512x16 .bf16) x = (V c main_v15 : S4096x16.Idx → EReal) k := by
  obtain ⟨e0_0, e0_1, e1_0, e1_1, e2_0, e2_1, e3_0, e3_1, e4_0, e4_1, e5_0, e5_1, e6_0, e6_1, e7_0, e7_1⟩ := idx_facts t
  unfold iblk0
  rw [View.read_apply]
  show V c main_v15 _ = V c main_v15 _
  congr 1
  funext a
  apply Fin.ext
  match a with
  | ⟨0, _⟩ => show win0_3.index t 0 * 512 + 1 * (x 0).val = (k 0).val; rw [e3_0, hk0]; omega
  | ⟨1, _⟩ => show win0_3.index t 1 * 16 + 1 * (x 1).val = (k 1).val; rw [e3_1, hk1]; omega

/-- Window 4's block at point t is rows 512·(t mod 8) … of the up projection. -/
theorem iblk0_4_apply (c : Dev nD) (t : Fin cfg0.N) (x : S512x16.Idx) (k : S4096x16.Idx)
    (hk0 : (k 0).val = 512 * (t.val % 8) + (x 0).val) (hk1 : (k 1).val = (x 1).val) :
    (iblk0 V c 4 t : Vec Ideal S512x16 .bf16) x = (V c main_v17 : S4096x16.Idx → EReal) k := by
  obtain ⟨e0_0, e0_1, e1_0, e1_1, e2_0, e2_1, e3_0, e3_1, e4_0, e4_1, e5_0, e5_1, e6_0, e6_1, e7_0, e7_1⟩ := idx_facts t
  unfold iblk0
  rw [View.read_apply]
  show V c main_v17 _ = V c main_v17 _
  congr 1
  funext a
  apply Fin.ext
  match a with
  | ⟨0, _⟩ => show win0_4.index t 0 * 512 + 1 * (x 0).val = (k 0).val; rw [e4_0, hk0]; omega
  | ⟨1, _⟩ => show win0_4.index t 1 * 16 + 1 * (x 1).val = (k 1).val; rw [e4_1, hk1]; omega

/-- Window 5's block at point t is columns 256·(t / 8) … of the gate's second factor. -/
theorem iblk0_5_apply (c : Dev nD) (t : Fin cfg0.N) (x : S16x256.Idx) (k : S16x11008.Idx)
    (hk0 : (k 0).val = (x 0).val) (hk1 : (k 1).val = 256 * (t.val / 8) + (x 1).val) :
    (iblk0 V c 5 t : Vec Ideal S16x256 .bf16) x = (V c main_v9 : S16x11008.Idx → EReal) k := by
  obtain ⟨e0_0, e0_1, e1_0, e1_1, e2_0, e2_1, e3_0, e3_1, e4_0, e4_1, e5_0, e5_1, e6_0, e6_1, e7_0, e7_1⟩ := idx_facts t
  unfold iblk0
  rw [View.read_apply]
  show V c main_v9 _ = V c main_v9 _
  congr 1
  funext a
  apply Fin.ext
  match a with
  | ⟨0, _⟩ => show win0_5.index t 0 * 16 + 1 * (x 0).val = (k 0).val; rw [e5_0, hk0]; omega
  | ⟨1, _⟩ => show win0_5.index t 1 * 256 + 1 * (x 1).val = (k 1).val; rw [e5_1, hk1]; omega

/-- Window 6's block at point t is columns 256·(t / 8) … of the up's second factor. -/
theorem iblk0_6_apply (c : Dev nD) (t : Fin cfg0.N) (x : S16x256.Idx) (k : S16x11008.Idx)
    (hk0 : (k 0).val = (x 0).val) (hk1 : (k 1).val = 256 * (t.val / 8) + (x 1).val) :
    (iblk0 V c 6 t : Vec Ideal S16x256 .bf16) x = (V c main_v11 : S16x11008.Idx → EReal) k := by
  obtain ⟨e0_0, e0_1, e1_0, e1_1, e2_0, e2_1, e3_0, e3_1, e4_0, e4_1, e5_0, e5_1, e6_0, e6_1, e7_0, e7_1⟩ := idx_facts t
  unfold iblk0
  rw [View.read_apply]
  show V c main_v11 _ = V c main_v11 _
  congr 1
  funext a
  apply Fin.ext
  match a with
  | ⟨0, _⟩ => show win0_6.index t 0 * 16 + 1 * (x 0).val = (k 0).val; rw [e6_0, hk0]; omega
  | ⟨1, _⟩ => show win0_6.index t 1 * 256 + 1 * (x 1).val = (k 1).val; rw [e6_1, hk1]; omega

/-! ## What a point writes back, and the array after the region -/

/-- The hidden matrix of the arrays the region finds. -/
abbrev H (c : Dev nD) : Cert.Mlp.Amh :=
  Cert.Mlp.hidden2 (V c main_v1) (V c main_v2) (V c main_v3) (V c main_v15) (V c main_v17) (V c main_v9) (V c main_v11)

/-- Point t writes back rows 512·(t mod 8) … and columns 256·(t / 8) … of the hidden matrix. -/
theorem flushed_eq (c : Dev nD) (t : Fin cfg0.N) :
    (dat0 V c).flushed 7 t = ((cfg0.win 7).blk t).view.read (Elt Ideal) (H V c) := by
  show (cfg0.win 7).cut (grid0.coords t) ((dat0 V c).after 7 t) = _
  rw [after0_7]
  unfold out0_7
  rw [View.canon_unit_zero hz]
  simp only [View.ld_unit_zero (S := S512x4096) hz, View.ld_unit_zero (S := S256x4096) hz, View.ld_unit_zero (S := S512x16) hz,
    View.ld_unit_zero (S := S16x256) hz]
  obtain ⟨e0_0, e0_1, e1_0, e1_1, e2_0, e2_1, e3_0, e3_1, e4_0, e4_1, e5_0, e5_1, e6_0, e6_1, e7_0, e7_1⟩ := idx_facts t
  funext y
  obtain ⟨p, q, rfl⟩ : ∃ (p : Fin 512) (q : Fin 256), (y : S512x256.Idx) = ix2 p q := ⟨y 0, y 1, eq_ix2 _⟩
  have ht : t.val < 344 := lt_of_lt_of_eq t.isLt N_0
  have hm : 512 * (t.val % 8) + p.val < 4096 := by have := p.isLt; omega
  have hh : 256 * (t.val / 8) + q.val < 11008 := by have := q.isLt; omega
  rw [View.read_apply]
  show k0_pay1 (iblk0 V c 0 t) (iblk0 V c 1 t) (iblk0 V c 2 t) (iblk0 V c 3 t) (iblk0 V c 4 t) (iblk0 V c 5 t) (iblk0 V c 6 t) (ix2 p q)
      = H V c (((cfg0.win 7).blk t).view.emb (ix2 p q))
  have he : ((cfg0.win 7).blk t).view.emb (ix2 p q)
      = (ix2 (⟨512 * (t.val % 8) + p.val, hm⟩ : Fin 4096) (⟨256 * (t.val / 8) + q.val, hh⟩ : Fin 11008) : S4096x11008.Idx) := by
    funext a
    apply Fin.ext
    match a with
    | ⟨0, _⟩ => show win0_7.index t 0 * 512 + 1 * p.val = 512 * (t.val % 8) + p.val; rw [e7_0]; omega
    | ⟨1, _⟩ => show win0_7.index t 1 * 256 + 1 * q.val = 256 * (t.val / 8) + q.val; rw [e7_1]; omega
  rw [he]
  exact pay_block (V c main_v1) (V c main_v2) (V c main_v3) (V c main_v15) (V c main_v17) (V c main_v9) (V c main_v11)
    (iblk0 V c 0 t) (iblk0 V c 1 t) (iblk0 V c 2 t) (iblk0 V c 3 t) (iblk0 V c 4 t) (iblk0 V c 5 t) (iblk0 V c 6 t)
    p q ⟨512 * (t.val % 8) + p.val, hm⟩ ⟨256 * (t.val / 8) + q.val, hh⟩
    (fun k => iblk0_0_apply V c t (ix2 p k) (ix2 ⟨512 * (t.val % 8) + p.val, hm⟩ k) rfl rfl)
    (fun k => iblk0_1_apply V c t (ix2 q k) (ix2 ⟨256 * (t.val / 8) + q.val, hh⟩ k) rfl rfl)
    (fun k => iblk0_2_apply V c t (ix2 q k) (ix2 ⟨256 * (t.val / 8) + q.val, hh⟩ k) rfl rfl)
    (fun r => iblk0_3_apply V c t (ix2 p r) (ix2 ⟨512 * (t.val % 8) + p.val, hm⟩ r) rfl rfl)
    (fun r => iblk0_4_apply V c t (ix2 p r) (ix2 ⟨512 * (t.val % 8) + p.val, hm⟩ r) rfl rfl)
    (fun r => iblk0_5_apply V c t (ix2 r q) (ix2 r ⟨256 * (t.val / 8) + q.val, hh⟩) rfl rfl)
    (fun r => iblk0_6_apply V c t (ix2 r q) (ix2 r ⟨256 * (t.val / 8) + q.val, hh⟩) rfl rfl)

/-- An entry of the hidden array is in point t's block iff each coordinate is in the block's range on its axis. -/
theorem mem_blk (t : Fin cfg0.N) (i : S4096x11008.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v18).slice (win0_7.rect t)).set ↔ _
  rw [View.set_slice_whole, Rect.mem_set_unit]
  exact Iff.rfl

/-- Every entry (m, h) of the hidden array is in the block of the point with row tile m / 512 and hidden tile h / 256,
    which is written back. -/
theorem cover (i : S4096x11008.Idx) : ∃ t : Fin cfg0.N, (cfg0.win 7).flush t = true ∧ i ∈ ((cfg0.win 7).blk t).view.set := by
  have hi0 : (i 0).val < 4096 := (i 0).isLt
  have hi1 : (i 1).val < 11008 := (i 1).isLt
  have htN : (i 1).val / 256 * 8 + (i 0).val / 512 < cfg0.N := by rw [show cfg0.N = 344 from N_0]; omega
  refine ⟨⟨(i 1).val / 256 * 8 + (i 0).val / 512, htN⟩, flush0_7 _, ?_⟩
  rw [mem_blk]
  obtain ⟨-, -, -, -, -, -, -, -, -, -, -, -, -, -, e7_0, e7_1⟩ := idx_facts ⟨(i 1).val / 256 * 8 + (i 0).val / 512, htN⟩
  have e0 : win0_7.index ⟨(i 1).val / 256 * 8 + (i 0).val / 512, htN⟩ 0 = ((i 1).val / 256 * 8 + (i 0).val / 512) % 8 := e7_0
  have e1 : win0_7.index ⟨(i 1).val / 256 * 8 + (i 0).val / 512, htN⟩ 1 = ((i 1).val / 256 * 8 + (i 0).val / 512) / 8 := e7_1
  intro a
  match a with
  | ⟨0, _⟩ =>
    show win0_7.index ⟨(i 1).val / 256 * 8 + (i 0).val / 512, htN⟩ 0 * 512 ≤ (i 0).val
      ∧ (i 0).val < win0_7.index ⟨(i 1).val / 256 * 8 + (i 0).val / 512, htN⟩ 0 * 512 + 512
    rw [e0]; omega
  | ⟨1, _⟩ =>
    show win0_7.index ⟨(i 1).val / 256 * 8 + (i 0).val / 512, htN⟩ 1 * 256 ≤ (i 1).val
      ∧ (i 1).val < win0_7.index ⟨(i 1).val / 256 * 8 + (i 0).val / 512, htN⟩ 1 * 256 + 256
    rw [e1]; omega

/-- THE HIDDEN ARRAY after the region: the hidden matrix of the arrays the region found. -/
theorem arrAt0_7 (c : Dev nD) :
    ((dat0 (F := Ideal) V c).arrAt 7 cfg0.N : S4096x11008.Idx → EReal)
      = Cert.Mlp.hidden2 (V c main_v1) (V c main_v2) (V c main_v3) (V c main_v15) (V c main_v17) (V c main_v9) (V c main_v11) :=
  (dat0 V c).arrAt_eq_of_cover 7 (H V c) (fun t _ => flushed_eq V c t) cover

end Region

end Cert.KernelIdeal.R0Value
end
-- ==== Proof.Value.R1Pieces.lean ====
/-
  The second region's accumulators, case by case, in terms of the body's arithmetic.

  Every store of the body covers its whole buffer, so what a buffer holds after the body is the payload of the last store
  into it, and a load after a store reads that store's payload. Hence: at a first hidden tile the output block ends at
  "zero plus this tile's product" and the scratch likewise; at a later tile each adds its product to what it held; at the
  last tile the output block further adds the product of the finished scratch with the adapter's second factor.
-/
import proofs.«120860_j26250840113719_2_alg».proof.Proof.KernelIdeal.R1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.Sem

variable {F : FTy → Type} [FloatOps F]

/-- The zero offsets, however spelt. -/
theorem hz00 : (![0, 0] : Fin 2 → Nat) = fun _ => 0 := funext fun a => by fin_cases a <;> rfl

theorem out1_A_4_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    out1_A_4 c i arg2 harg2 arg3 harg3 arg4 harg4 arg5 harg5 arg6 harg6 arg7 harg7 hc0 hc1 x0 x1 x2 = k1_pay4 x0 x1 (k1_pay1 (F := F)) := by
  unfold out1_A_4
  rw [View.read_writes_eq_canon _ _ _ (cover1_A_4 c i arg2 harg2 arg3 harg3 arg4 harg4 arg5 harg5 arg6 harg6 arg7 harg7 hc0 hc1 x0 x1 x2)]
  unfold kernelRun1_A
  dsimp only
  sl_unfold_words
  rw [View.canon_cons_unit_zero (S := S512x4096) hz00]
  simp only [View.readCov_unit_zero (S := S512x16) _ hz00, View.readCov_unit_zero (S := S512x4096) _ hz00, View.readAt_eq_ld,
    harg2.read_unread, harg3.read_unread, harg4.read_unread, harg5.read_unread, harg6.read_unread, harg7.read_unread,
    View.ld_unit_zero (S := S512x256) hz00, View.ld_unit_zero (S := S4096x256) hz00, View.ld_unit_zero (S := S16x256) hz00,
    View.ld_unit_zero (S := S16x4096) hz00, View.ld_unit_zero (S := S512x4096) hz00, View.ld_unit_zero (S := S512x16) hz00]

theorem sout1_A_0_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : cond1_0 i) (hc1 : ¬cond1_1 i)
    (x0 : Vec F S512x256 .bf16) (x1 : Vec F S4096x256 .bf16) (x2 : Vec F S16x256 .bf16) :
    sout1_A_0 c i arg2 harg2 arg3 harg3 arg4 harg4 arg5 harg5 arg6 harg6 arg7 harg7 hc0 hc1 x0 x1 x2 = k1_pay5 x0 x2 (k1_pay2 (F := F)) := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_words
  rw [View.canon_cons_unit_zero (S := S512x16) hz00]
  simp only [View.readCov_unit_zero (S := S512x16) _ hz00, View.readCov_unit_zero (S := S512x4096) _ hz00, View.readAt_eq_ld,
    harg2.read_unread, harg3.read_unread, harg4.read_unread, harg5.read_unread, harg6.read_unread, harg7.read_unread,
    View.ld_unit_zero (S := S512x256) hz00, View.ld_unit_zero (S := S4096x256) hz00, View.ld_unit_zero (S := S16x256) hz00,
    View.ld_unit_zero (S := S16x4096) hz00, View.ld_unit_zero (S := S512x4096) hz00, View.ld_unit_zero (S := S512x16) hz00]

theorem out1_B_4_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    out1_B_4 c i arg2 harg2 arg3 harg3 arg4 harg4 arg5 harg5 arg6 harg6 arg7 harg7 hc0 hc1 x0 x1 x2 xo4 xs0 = k1_pay4 x0 x1 xo4 := by
  unfold out1_B_4
  rw [View.read_writes_eq_canon _ _ _ (cover1_B_4 c i arg2 harg2 arg3 harg3 arg4 harg4 arg5 harg5 arg6 harg6 arg7 harg7 hc0 hc1 x0 x1 x2 xo4 xs0)]
  unfold kernelRun1_B
  dsimp only
  sl_unfold_words
  rw [View.canon_cons_unit_zero (S := S512x4096) hz00]
  simp only [View.readCov_unit_zero (S := S512x16) _ hz00, View.readCov_unit_zero (S := S512x4096) _ hz00, View.readAt_eq_ld,
    harg2.read_unread, harg3.read_unread, harg4.read_unread, harg5.read_unread, harg6.read_unread, harg7.read_unread,
    View.ld_unit_zero (S := S512x256) hz00, View.ld_unit_zero (S := S4096x256) hz00, View.ld_unit_zero (S := S16x256) hz00,
    View.ld_unit_zero (S := S16x4096) hz00, View.ld_unit_zero (S := S512x4096) hz00, View.ld_unit_zero (S := S512x16) hz00]

theorem sout1_B_0_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : ¬cond1_1 i)
    (x0 : Vec F S512x256 .bf16) (x1 : Vec F S4096x256 .bf16) (x2 : Vec F S16x256 .bf16) (xo4 : Vec F S512x4096 .f32) (xs0 : Vec F S512x16 .f32) :
    sout1_B_0 c i arg2 harg2 arg3 harg3 arg4 harg4 arg5 harg5 arg6 harg6 arg7 harg7 hc0 hc1 x0 x1 x2 xo4 xs0 = k1_pay5 x0 x2 xs0 := by
  unfold sout1_B_0
  rw [View.read_writes_eq_canon _ _ _ (scover1_B_0 c i arg2 harg2 arg3 harg3 arg4 harg4 arg5 harg5 arg6 harg6 arg7 harg7 hc0 hc1 x0 x1 x2 xo4 xs0)]
  unfold kernelRun1_B
  dsimp only
  sl_unfold_words
  rw [View.canon_cons_unit_zero (S := S512x16) hz00]
  simp only [View.readCov_unit_zero (S := S512x16) _ hz00, View.readCov_unit_zero (S := S512x4096) _ hz00, View.readAt_eq_ld,
    harg2.read_unread, harg3.read_unread, harg4.read_unread, harg5.read_unread, harg6.read_unread, harg7.read_unread,
    View.ld_unit_zero (S := S512x256) hz00, View.ld_unit_zero (S := S4096x256) hz00, View.ld_unit_zero (S := S16x256) hz00,
    View.ld_unit_zero (S := S16x4096) hz00, View.ld_unit_zero (S := S512x4096) hz00, View.ld_unit_zero (S := S512x16) hz00]

theorem out1_C_4_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) :
    out1_C_4 c i arg2 harg2 arg3 harg3 arg4 harg4 arg5 harg5 arg6 harg6 arg7 harg7 hc0 hc1 x0 x1 x2 x3 xo4 xs0 = k1_pay6 x3 (k1_pay5 x0 x2 xs0) (k1_pay4 x0 x1 xo4) := by
  unfold out1_C_4
  rw [View.read_writes_eq_canon _ _ _ (cover1_C_4 c i arg2 harg2 arg3 harg3 arg4 harg4 arg5 harg5 arg6 harg6 arg7 harg7 hc0 hc1 x0 x1 x2 x3 xo4 xs0)]
  unfold kernelRun1_C
  dsimp only
  sl_unfold_words
  rw [View.canon_cons_unit_zero (S := S512x4096) hz00]
  simp only [View.readCov_unit_zero (S := S512x16) _ hz00, View.readCov_unit_zero (S := S512x4096) _ hz00, View.readAt_eq_ld,
    harg2.read_unread, harg3.read_unread, harg4.read_unread, harg5.read_unread, harg6.read_unread, harg7.read_unread,
    View.ld_unit_zero (S := S512x256) hz00, View.ld_unit_zero (S := S4096x256) hz00, View.ld_unit_zero (S := S16x256) hz00,
    View.ld_unit_zero (S := S16x4096) hz00, View.ld_unit_zero (S := S512x4096) hz00, View.ld_unit_zero (S := S512x16) hz00]

theorem sout1_C_0_eq (c : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S512x4096 .f32) (harg6 : arg6.IsWhole) (arg7 : Memref sig .tc .vmem S512x16 .f32) (harg7 : arg7.IsWhole) (hc0 : ¬cond1_0 i) (hc1 : cond1_1 i)
    (x0 : Vec F S512x256 .bf16) (x1 : Vec F S4096x256 .bf16) (x2 : Vec F S16x256 .bf16) (x3 : Vec F S16x4096 .bf16) (xo4 : Vec F S512x4096 .f32) (xs0 : Vec F S512x16 .f32) :
    sout1_C_0 c i arg2 harg2 arg3 harg3 arg4 harg4 arg5 harg5 arg6 harg6 arg7 harg7 hc0 hc1 x0 x1 x2 x3 xo4 xs0 = k1_pay5 x0 x2 xs0 := by
  unfold sout1_C_0
  rw [View.read_writes_eq_canon _ _ _ (scover1_C_0 c i arg2 harg2 arg3 harg3 arg4 harg4 arg5 harg5 arg6 harg6 arg7 harg7 hc0 hc1 x0 x1 x2 x3 xo4 xs0)]
  unfold kernelRun1_C
  dsimp only
  sl_unfold_words
  rw [View.canon_cons_unit_zero (S := S512x16) hz00]
  simp only [View.readCov_unit_zero (S := S512x16) _ hz00, View.readCov_unit_zero (S := S512x4096) _ hz00, View.readAt_eq_ld,
    harg2.read_unread, harg3.read_unread, harg4.read_unread, harg5.read_unread, harg6.read_unread, harg7.read_unread,
    View.ld_unit_zero (S := S512x256) hz00, View.ld_unit_zero (S := S4096x256) hz00, View.ld_unit_zero (S := S16x256) hz00,
    View.ld_unit_zero (S := S16x4096) hz00, View.ld_unit_zero (S := S512x4096) hz00, View.ld_unit_zero (S := S512x16) hz00]

end Cert.KernelIdeal.R1

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.Value.R1Value.lean ====
/-
  The second kernel's result over the extended reals: after it has run, the output array holds at every entry (m, d)
  the adapted product of row m of the hidden matrix with row d of the down weight,
      Σ_h hid(m,h)·dw(d,h) + Σ_r (Σ_h hid(m,h)·da(r,h))·dbT(r,d).
  Grid point t works on row tile t / 43 (512 rows) and hidden tile t mod 43 (256 hidden positions). Over the 43 points
  of a row tile the output block's buffer and a 512 × 16 side buffer each accumulate, starting from zero, one hidden
  tile's part of their product per point; at the last of them the side buffer's finished rows are multiplied into the
  second factor and added, and the block is written back. Addition on the extended reals is commutative and
  associative with 0 neutral, and nothing else is used: the 43 tiles' parts add up to the sum over all 11008 hidden
  positions.
-/
import proofs.«120860_j26250840113719_2_alg».proof.Proof.Value.R1Pieces
import proofs.«120860_j26250840113719_2_alg».proof.Proof.Spec
import proofs.«120860_j26250840113719_2_alg».proof.Proof.LibTransDot
import proofs.«120860_j26250840113719_2_alg».proof.Proof.LibPlainDot
import proofs.«120860_j26250840113719_2_alg».proof.Proof.LibTileSum
import Idealize.ShloMosaic.Lib.Pipeline.Value

set_option maxRecDepth 16384

noncomputable section
open scoped BigOperators
namespace Cert.KernelIdeal.R1Value

open Cert.KernelIdeal Cert.KernelIdeal.Gen Cert.KernelIdeal.R1
open Idealize.ShloMosaic Idealize.ShloMosaic.TcCoe Idealize.ShloMosaic.ValueIdx Idealize.SL.Sem
open Idealize.ShloMosaic.Pipeline (Dat)

/-! ## The body's payloads at an entry -/

/-- The two accumulators start from zero. -/
theorem pay1_at (p : Fin 512) (d : Fin 4096) : k1_pay1 (F := Ideal) (ix2 p d) = 0 := by
  unfold k1_pay1
  exact Ideal.ofBits_zero_f32

theorem pay2_at (p : Fin 512) (r : Fin 16) : k1_pay2 (F := Ideal) (ix2 p r) = 0 := by
  unfold k1_pay2
  simp only [shapeCast_self]
  exact Ideal.ofBits_zero_f32

/-- One step of the output accumulator: entry (p, d) gains the product of row p of the hidden block with row d of the
    weight block. -/
theorem pay4_at (x0 : Vec Ideal S512x256 .bf16) (x1 : Vec Ideal S4096x256 .bf16) (acc : Vec Ideal S512x4096 .f32)
    (p : Fin 512) (d : Fin 4096) :
    k1_pay4 x0 x1 acc (ix2 p d) = acc (ix2 p d) + ∑ q : Fin 256, x0 (ix2 p q) * x1 (ix2 d q) := by
  have hA := TransDot.matmul_zero_apply (M := 512) (K := 256) (N := 4096) (φ₁ := .bf16) (φ₂ := .bf16) none x0 x1 p d
  rw [← hA]
  unfold k1_pay4 k1_pay3
  simp only [shapeCast_self]
  rfl

/-- One step of the rank-16 accumulator: entry (p, r) gains the product of row p of the hidden block with row r of the
    first factor's block. -/
theorem pay5_at (x0 : Vec Ideal S512x256 .bf16) (x2 : Vec Ideal S16x256 .bf16) (acc : Vec Ideal S512x16 .f32)
    (p : Fin 512) (r : Fin 16) :
    k1_pay5 x0 x2 acc (ix2 p r) = acc (ix2 p r) + ∑ q : Fin 256, x0 (ix2 p q) * x2 (ix2 r q) := by
  have hA := TransDot.matmul_zero_apply (M := 512) (K := 256) (N := 16) (φ₁ := .bf16) (φ₂ := .bf16) none x0 x2 p r
  rw [← hA]
  unfold k1_pay5 k1_pay3
  simp only [shapeCast_self]
  rfl

/-- The closing step: entry (p, d) gains the product of row p of the finished rank-16 accumulator with column d of the
    second factor. -/
theorem pay6_at (x3 : Vec Ideal S16x4096 .bf16) (s : Vec Ideal S512x16 .f32) (o : Vec Ideal S512x4096 .f32)
    (p : Fin 512) (d : Fin 4096) :
    k1_pay6 x3 s o (ix2 p d) = o (ix2 p d) + ∑ r : Fin 16, s (ix2 p r) * x3 (ix2 r d) := by
  have hD : _ = ∑ r : Fin 16, s (ix2 p r) * x3 (ix2 r d) :=
    PlainDot.matmul_zero_apply (M := 512) (K := 16) (N := 4096) (φ₁ := .bf16) (φ₂ := .bf16) none
      (truncf .bf16 s bitsLt_bf16_f32) x3 p d
  rw [← hD]
  unfold k1_pay6
  simp only [shapeCast_self]
  rfl

/-! ## The hidden axis, tile by tile -/

theorem hN : 43 * 256 = 11008 := by norm_num
theorem hpos : 0 < 11008 := by norm_num

/-- The part of a sum over the 11008 hidden positions that falls in tile j (positions 256·j … 256·j + 255). -/
def tileSum (g : Fin 11008 → EReal) (j : ℕ) : EReal := ∑ w : Fin 256, g (TileSum.posN hpos j w)

/-- The 43 tiles' parts add up to the whole sum. -/
theorem tileSum_total (g : Fin 11008 → EReal) : ∑ j ∈ Finset.range 43, tileSum g j = ∑ h : Fin 11008, g h :=
  TileSum.sum_range_tiles hN hpos g

/-- Position w of tile j, for j below 43. -/
theorem posN_val' (j : ℕ) (hj : j < 43) (w : Fin 256) : (TileSum.posN hpos j w : Fin 11008).val = 256 * j + w.val :=
  TileSum.posN_val hN hpos j hj w

/-- A block product over the 256 positions of tile j is tile j's part of the product over the whole hidden axis, when
    the two blocks are the tile's columns of two rows of full-width arrays. -/
theorem tile_dot {n0 n1 : Nat} (a : (⟨2, ![n0, 11008]⟩ : Shape).Idx → EReal) (b : (⟨2, ![n1, 11008]⟩ : Shape).Idx → EReal)
    (u v : Fin 256 → EReal) (m : Fin n0) (d : Fin n1) (j : ℕ)
    (hu : ∀ w, u w = a (ix2 m (TileSum.posN hpos j w))) (hv : ∀ w, v w = b (ix2 d (TileSum.posN hpos j w))) :
    ∑ w : Fin 256, u w * v w = tileSum (fun h => a (ix2 m h) * b (ix2 d h)) j := by
  unfold tileSum
  exact Finset.sum_congr rfl fun w _ => by rw [hu w, hv w]

/-! ## The windows' block indices over the grid -/

/-- Point t has row tile t / 43 and hidden tile t mod 43: the hidden block moves with both, the weight's and the first
    factor's blocks with the hidden tile, the second factor is one block, the output block moves with the row tile. -/
theorem idx_facts : ∀ t : Fin cfg1.N,
    win1_0.index t (0 : Fin 2) = t.val / 43 ∧ win1_0.index t (1 : Fin 2) = t.val % 43
    ∧ win1_1.index t (0 : Fin 2) = 0 ∧ win1_1.index t (1 : Fin 2) = t.val % 43
    ∧ win1_2.index t (0 : Fin 2) = 0 ∧ win1_2.index t (1 : Fin 2) = t.val % 43
    ∧ win1_3.index t (0 : Fin 2) = 0 ∧ win1_3.index t (1 : Fin 2) = 0
    ∧ win1_4.index t (0 : Fin 2) = t.val / 43 ∧ win1_4.index t (1 : Fin 2) = 0 :=
  (by decide +kernel : ∀ t : Fin grid1.N, _)

/-! ## One step of each accumulator, against the full-width arrays -/

/-- A step of the output accumulator at hidden tile j: tile j's part of the product of row m of the hidden matrix with
    row d of the weight is added. -/
theorem step4 (H : Cert.Mlp.Amh) (DW : Cert.Mlp.Akh) (x0 : Vec Ideal S512x256 .bf16) (x1 : Vec Ideal S4096x256 .bf16)
    (acc : Vec Ideal S512x4096 .f32) (p : Fin 512) (d m : Fin 4096) (j : ℕ) (z : EReal)
    (h0 : ∀ w : Fin 256, x0 (ix2 p w) = H (ix2 m (TileSum.posN hpos j w)))
    (h1 : ∀ w : Fin 256, x1 (ix2 d w) = DW (ix2 d (TileSum.posN hpos j w)))
    (hacc : acc (ix2 p d) = z) :
    k1_pay4 x0 x1 acc (ix2 p d) = z + tileSum (fun h => H (ix2 m h) * DW (ix2 d h)) j := by
  rw [pay4_at, hacc, tile_dot H DW (fun w => x0 (ix2 p w)) (fun w => x1 (ix2 d w)) m d j h0 h1]

/-- A step of the rank-16 accumulator at hidden tile j. -/
theorem step5 (H : Cert.Mlp.Amh) (DA : Cert.Mlp.Arh) (x0 : Vec Ideal S512x256 .bf16) (x2 : Vec Ideal S16x256 .bf16)
    (acc : Vec Ideal S512x16 .f32) (p : Fin 512) (r : Fin 16) (m : Fin 4096) (j : ℕ) (z : EReal)
    (h0 : ∀ w : Fin 256, x0 (ix2 p w) = H (ix2 m (TileSum.posN hpos j w)))
    (h2 : ∀ w : Fin 256, x2 (ix2 r w) = DA (ix2 r (TileSum.posN hpos j w)))
    (hacc : acc (ix2 p r) = z) :
    k1_pay5 x0 x2 acc (ix2 p r) = z + tileSum (fun h => H (ix2 m h) * DA (ix2 r h)) j := by
  rw [pay5_at, hacc, tile_dot H DA (fun w => x0 (ix2 p w)) (fun w => x2 (ix2 r w)) m r j h0 h2]

section Region
variable (V : (c : Dev nD) → (b : Ref sig .tc) → Buf (Elt Ideal) ((c : Thread nD τ).loc b))

/-! ## Each input block as entries of its array -/
/-- Window 0's block at point t is rows 512·(t / 43) … and columns 256·(t mod 43) … of the hidden matrix. -/
theorem iblk1_0_apply (c : Dev nD) (t : Fin cfg1.N) (x : S512x256.Idx) (k : S4096x11008.Idx)
    (hk0 : (k 0).val = 512 * (t.val / 43) + (x 0).val) (hk1 : (k 1).val = 256 * (t.val % 43) + (x 1).val) :
    (iblk1 V c 0 t : Vec Ideal S512x256 .bf16) x = (V c main_v18 : S4096x11008.Idx → EReal) k := by
  obtain ⟨e0_0, e0_1, e1_0, e1_1, e2_0, e2_1, e3_0, e3_1, e4_0, e4_1⟩ := idx_facts t
  unfold iblk1
  rw [View.read_apply]
  show V c main_v18 _ = V c main_v18 _
  congr 1
  funext a
  apply Fin.ext
  match a with
  | ⟨0, _⟩ => show win1_0.index t 0 * 512 + 1 * (x 0).val = (k 0).val; rw [e0_0, hk0]; omega
  | ⟨1, _⟩ => show win1_0.index t 1 * 256 + 1 * (x 1).val = (k 1).val; rw [e0_1, hk1]; omega

/-- Window 1's block at point t is columns 256·(t mod 43) … of the down weight. -/
theorem iblk1_1_apply (c : Dev nD) (t : Fin cfg1.N) (x : S4096x256.Idx) (k : S4096x11008.Idx)
    (hk0 : (k 0).val = (x 0).val) (hk1 : (k 1).val = 256 * (t.val % 43) + (x 1).val) :
    (iblk1 V c 1 t : Vec Ideal S4096x256 .bf16) x = (V c main_v4 : S4096x11008.Idx → EReal) k := by
  obtain ⟨e0_0, e0_1, e1_0, e1_1, e2_0, e2_1, e3_0, e3_1, e4_0, e4_1⟩ := idx_facts t
  unfold iblk1
  rw [View.read_apply]
  show V c main_v4 _ = V c main_v4 _
  congr 1
  funext a
  apply Fin.ext
  match a with
  | ⟨0, _⟩ => show win1_1.index t 0 * 4096 + 1 * (x 0).val = (k 0).val; rw [e1_0, hk0]; omega
  | ⟨1, _⟩ => show win1_1.index t 1 * 256 + 1 * (x 1).val = (k 1).val; rw [e1_1, hk1]; omega

/-- Window 2's block at point t is columns 256·(t mod 43) … of the adapter's first factor. -/
theorem iblk1_2_apply (c : Dev nD) (t : Fin cfg1.N) (x : S16x256.Idx) (k : S16x11008.Idx)
    (hk0 : (k 0).val = (x 0).val) (hk1 : (k 1).val = 256 * (t.val % 43) + (x 1).val) :
    (iblk1 V c 2 t : Vec Ideal S16x256 .bf16) x = (V c main_v7 : S16x11008.Idx → EReal) k := by
  obtain ⟨e0_0, e0_1, e1_0, e1_1, e2_0, e2_1, e3_0, e3_1, e4_0, e4_1⟩ := idx_facts t
  unfold iblk1
  rw [View.read_apply]
  show V c main_v7 _ = V c main_v7 _
  congr 1
  funext a
  apply Fin.ext
  match a with
  | ⟨0, _⟩ => show win1_2.index t 0 * 16 + 1 * (x 0).val = (k 0).val; rw [e2_0, hk0]; omega
  | ⟨1, _⟩ => show win1_2.index t 1 * 256 + 1 * (x 1).val = (k 1).val; rw [e2_1, hk1]; omega

/-- Window 3's block at point t is the whole of the adapter's second factor. -/
theorem iblk1_3_apply (c : Dev nD) (t : Fin cfg1.N) (x : S16x4096.Idx) (k : S16x4096.Idx)
    (hk0 : (k 0).val = (x 0).val) (hk1 : (k 1).val = (x 1).val) :
    (iblk1 V c 3 t : Vec Ideal S16x4096 .bf16) x = (V c main_v13 : S16x4096.Idx → EReal) k := by
  obtain ⟨e0_0, e0_1, e1_0, e1_1, e2_0, e2_1, e3_0, e3_1, e4_0, e4_1⟩ := idx_facts t
  unfold iblk1
  rw [View.read_apply]
  show V c main_v13 _ = V c main_v13 _
  congr 1
  funext a
  apply Fin.ext
  match a with
  | ⟨0, _⟩ => show win1_3.index t 0 * 16 + 1 * (x 0).val = (k 0).val; rw [e3_0, hk0]; omega
  | ⟨1, _⟩ => show win1_3.index t 1 * 4096 + 1 * (x 1).val = (k 1).val; rw [e3_1, hk1]; omega

/-- The four arrays the region reads, at their matrix types. -/
abbrev aH (c : Dev nD) : Cert.Mlp.Amh := V c main_v18
abbrev aDW (c : Dev nD) : Cert.Mlp.Akh := V c main_v4
abbrev aDA (c : Dev nD) : Cert.Mlp.Arh := V c main_v7
abbrev aDBT (c : Dev nD) : Cert.Mlp.Ark := V c main_v13

/-! ## The accumulators after every point -/

/-- After the body at position n (row tile n / 43, hidden tile n mod 43), for row m = 512·(n / 43) + p of the hidden
    matrix: the rank-16 accumulator at (p, r) is zero plus the parts of tiles 0 … n mod 43 of the product of row m with
    row r of the first factor; before the last tile the output accumulator at (p, d) is zero plus the same tiles' parts of
    the product of row m with row d of the weight; at the last tile it is that total plus the product of the finished
    rank-16 row with column d of the second factor. -/
theorem inv (c : Dev nD) : ∀ (n : ℕ) (hn : n < cfg1.N),
    (∀ (p : Fin 512) (r : Fin 16) (m : Fin 4096), m.val = 512 * (n / 43) + p.val →
      (outsAt1 V c n hn).2 (ix2 p r) = 0 + ∑ j ∈ Finset.range (n % 43 + 1), tileSum (fun h => aH V c (ix2 m h) * aDA V c (ix2 r h)) j)
    ∧ (¬n % 43 = 42 → ∀ (p : Fin 512) (d m : Fin 4096), m.val = 512 * (n / 43) + p.val →
      (outsAt1 V c n hn).1 (ix2 p d) = 0 + ∑ j ∈ Finset.range (n % 43 + 1), tileSum (fun h => aH V c (ix2 m h) * aDW V c (ix2 d h)) j)
    ∧ (n % 43 = 42 → ∀ (p : Fin 512) (d m : Fin 4096), m.val = 512 * (n / 43) + p.val →
      (outsAt1 V c n hn).1 (ix2 p d) = (0 + ∑ j ∈ Finset.range 43, tileSum (fun h => aH V c (ix2 m h) * aDW V c (ix2 d h)) j)
        + ∑ r : Fin 16, (0 + ∑ j ∈ Finset.range 43, tileSum (fun h => aH V c (ix2 m h) * aDA V c (ix2 r h)) j) * aDBT V c (ix2 r d)) := by
  intro n
  induction n using Nat.strong_induction_on with
  | _ n ih =>
  intro hn
  have hn344 : n < 344 := lt_of_lt_of_eq hn N_1
  have hj : n % 43 < 43 := Nat.mod_lt _ (by norm_num)
  have b0 : ∀ (p : Fin 512) (m : Fin 4096), m.val = 512 * (n / 43) + p.val → ∀ w : Fin 256,
      (iblk1 V c 0 ⟨n, hn⟩ : Vec Ideal S512x256 .bf16) (ix2 p w)
        = aH V c (ix2 m (TileSum.posN hpos (n % 43) w)) :=
    fun p m hm w => iblk1_0_apply V c ⟨n, hn⟩ (ix2 p w) (ix2 m (TileSum.posN hpos (n % 43) w)) hm (posN_val' (n % 43) hj w)
  have b1 : ∀ (d : Fin 4096) (w : Fin 256),
      (iblk1 V c 1 ⟨n, hn⟩ : Vec Ideal S4096x256 .bf16) (ix2 d w)
        = aDW V c (ix2 d (TileSum.posN hpos (n % 43) w)) :=
    fun d w => iblk1_1_apply V c ⟨n, hn⟩ (ix2 d w) (ix2 d (TileSum.posN hpos (n % 43) w)) rfl (posN_val' (n % 43) hj w)
  have b2 : ∀ (r : Fin 16) (w : Fin 256),
      (iblk1 V c 2 ⟨n, hn⟩ : Vec Ideal S16x256 .bf16) (ix2 r w)
        = aDA V c (ix2 r (TileSum.posN hpos (n % 43) w)) :=
    fun r w => iblk1_2_apply V c ⟨n, hn⟩ (ix2 r w) (ix2 r (TileSum.posN hpos (n % 43) w)) rfl (posN_val' (n % 43) hj w)
  by_cases h0 : n % 43 = 0
  · -- a first hidden tile: both accumulators start from zero
    have h1 : ¬n % 43 = 42 := by omega
    have e : outsAt1 V c n hn = _ := outsAt1_A V c ⟨n, hn⟩ h0 h1
    refine ⟨fun p r m hm => ?_, fun _ p d m hm => ?_, fun h => absurd h h1⟩
    · rw [e]; dsimp only; rw [sout1_A_0_eq]
      refine (step5 (aH V c) (aDA V c) (iblk1 V c 0 ⟨n, hn⟩) (iblk1 V c 2 ⟨n, hn⟩) (k1_pay2 (F := Ideal)) p r m (n % 43) 0
        (b0 p m hm) (b2 r) (pay2_at p r)).trans ?_
      rw [h0]; exact TileSum.run_one 0 _
    · rw [e]; dsimp only; rw [out1_A_4_eq]
      refine (step4 (aH V c) (aDW V c) (iblk1 V c 0 ⟨n, hn⟩) (iblk1 V c 1 ⟨n, hn⟩) (k1_pay1 (F := Ideal)) p d m (n % 43) 0
        (b0 p m hm) (b1 d) (pay1_at p d)).trans ?_
      rw [h0]; exact TileSum.run_one 0 _
  · -- a later hidden tile: each accumulator adds to what the point before left
    have hlt : n - 1 < cfg1.N := Nat.lt_of_le_of_lt (Nat.sub_le _ _) hn
    obtain ⟨ihS, ihO, -⟩ := ih (n - 1) (by omega) hlt
    have hk : (n - 1) % 43 + 1 = n % 43 := by omega
    have hd : (n - 1) / 43 = n / 43 := by omega
    have hp42 : ¬(n - 1) % 43 = 42 := by omega
    have hS : ∀ (p : Fin 512) (r : Fin 16) (m : Fin 4096), m.val = 512 * (n / 43) + p.val →
        k1_pay5 (iblk1 V c 0 ⟨n, hn⟩) (iblk1 V c 2 ⟨n, hn⟩) (outsAt1 V c (n - 1) hlt).2 (ix2 p r)
          = 0 + ∑ j ∈ Finset.range (n % 43 + 1), tileSum (fun h => aH V c (ix2 m h) * aDA V c (ix2 r h)) j := by
      intro p r m hm
      refine (step5 (aH V c) (aDA V c) (iblk1 V c 0 ⟨n, hn⟩) (iblk1 V c 2 ⟨n, hn⟩) (outsAt1 V c (n - 1) hlt).2 p r m (n % 43) _
        (b0 p m hm) (b2 r) (ihS p r m (by rw [hd]; exact hm))).trans ?_
      rw [hk]; exact TileSum.run_succ 0 _ (n % 43)
    have hO : ∀ (p : Fin 512) (d m : Fin 4096), m.val = 512 * (n / 43) + p.val →
        k1_pay4 (iblk1 V c 0 ⟨n, hn⟩) (iblk1 V c 1 ⟨n, hn⟩) (outsAt1 V c (n - 1) hlt).1 (ix2 p d)
          = 0 + ∑ j ∈ Finset.range (n % 43 + 1), tileSum (fun h => aH V c (ix2 m h) * aDW V c (ix2 d h)) j := by
      intro p d m hm
      refine (step4 (aH V c) (aDW V c) (iblk1 V c 0 ⟨n, hn⟩) (iblk1 V c 1 ⟨n, hn⟩) (outsAt1 V c (n - 1) hlt).1 p d m (n % 43) _
        (b0 p m hm) (b1 d) (ihO hp42 p d m (by rw [hd]; exact hm))).trans ?_
      rw [hk]; exact TileSum.run_succ 0 _ (n % 43)
    by_cases h1 : n % 43 = 42
    · -- the last hidden tile: the finished rank-16 row meets the second factor
      have e : outsAt1 V c n hn = _ := outsAt1_C V c ⟨n, hn⟩ h0 h1
      have h43 : n % 43 + 1 = 43 := by omega
      refine ⟨fun p r m hm => ?_, fun h => absurd h1 h, fun _ p d m hm => ?_⟩
      · rw [e]; dsimp only; rw [sout1_C_0_eq]
        exact hS p r m hm
      · rw [e]; dsimp only; rw [out1_C_4_eq, pay6_at]
        have hO' := hO p d m hm
        rw [h43] at hO'
        rw [hO']
        refine congrArg (fun z : EReal => (0 + ∑ j ∈ Finset.range 43, tileSum (fun h => aH V c (ix2 m h) * aDW V c (ix2 d h)) j) + z) (Finset.sum_congr rfl fun r _ => ?_)
        have hS' := hS p r m hm
        rw [h43] at hS'
        rw [hS', iblk1_3_apply V c ⟨n, hn⟩ (ix2 r d) (ix2 r d) rfl rfl]
    · have e : outsAt1 V c n hn = _ := outsAt1_B V c ⟨n, hn⟩ h0 h1
      refine ⟨fun p r m hm => ?_, fun _ p d m hm => ?_, fun h => absurd h h1⟩
      · rw [e]; dsimp only; rw [sout1_B_0_eq]
        exact hS p r m hm
      · rw [e]; dsimp only; rw [out1_B_4_eq]
        exact hO p d m hm

/-! ## What a row tile's last point writes back, and the array after the region -/

/-- The last point of a row tile writes back rows 512·(t / 43) … of the result of the second stage. -/
theorem flushed_eq (c : Dev nD) (t : Fin cfg1.N) (hf : (cfg1.win 4).flush t = true) :
    (dat1 V c).flushed 4 t = ((cfg1.win 4).blk t).view.read (Elt Ideal) (Cert.Mlp.down2 (aH V c) (aDW V c) (aDA V c) (aDBT V c)) := by
  have h42 : t.val % 43 = 42 := (flush1_4 t).mp hf
  show (cfg1.win 4).cut (grid1.coords t) ((dat1 V c).after 4 t) = _
  rw [after1_4]
  obtain ⟨-, -, -, -, -, -, -, -, e4_0, e4_1⟩ := idx_facts t
  funext y
  obtain ⟨p, d, rfl⟩ : ∃ (p : Fin 512) (d : Fin 4096), (y : S512x4096.Idx) = ix2 p d := ⟨y 0, y 1, eq_ix2 _⟩
  have ht : t.val < 344 := lt_of_lt_of_eq t.isLt N_1
  have hm : 512 * (t.val / 43) + p.val < 4096 := by have := p.isLt; omega
  rw [View.read_apply]
  show (outsAt1 V c t.val t.isLt).1 (ix2 p d)
      = Cert.Mlp.down2 (aH V c) (aDW V c) (aDA V c) (aDBT V c) (((cfg1.win 4).blk t).view.emb (ix2 p d))
  have he : ((cfg1.win 4).blk t).view.emb (ix2 p d)
      = (ix2 (⟨512 * (t.val / 43) + p.val, hm⟩ : Fin 4096) d : S4096x4096.Idx) := by
    funext a
    apply Fin.ext
    match a with
    | ⟨0, _⟩ => show win1_4.index t 0 * 512 + 1 * p.val = 512 * (t.val / 43) + p.val; rw [e4_0]; omega
    | ⟨1, _⟩ => show win1_4.index t 1 * 4096 + 1 * d.val = d.val; rw [e4_1]; omega
  rw [he, (inv V c t.val t.isLt).2.2 h42 p d ⟨512 * (t.val / 43) + p.val, hm⟩ rfl, Cert.Mlp.down2_apply]
  simp only [zero_add, tileSum_total]

/-- An entry of the output array is in point t's block iff each coordinate is in the block's range on its axis. -/
theorem mem_blk (t : Fin cfg1.N) (i : S4096x4096.Idx) :
    i ∈ ((cfg1.win 4).blk t).view.set ↔ ∀ a : Fin 2, win1_4.index t a * S512x4096.size a ≤ (i a).val ∧ (i a).val < win1_4.index t a * S512x4096.size a + S512x4096.size a := by
  show i ∈ ((View.whole main_v19).slice (win1_4.rect t)).set ↔ _
  rw [View.set_slice_whole, Rect.mem_set_unit]
  exact Iff.rfl

/-- Every entry (m, d) of the output array is in the block of the last point of row tile m / 512, which is written back. -/
theorem cover (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  have htN : 43 * ((i 0).val / 512) + 42 < cfg1.N := by rw [show cfg1.N = 344 from N_1]; omega
  refine ⟨⟨43 * ((i 0).val / 512) + 42, htN⟩, (flush1_4 _).mpr (by show (43 * ((i 0).val / 512) + 42) % 43 = 42; omega), ?_⟩
  rw [mem_blk]
  obtain ⟨-, -, -, -, -, -, -, -, e4_0, e4_1⟩ := idx_facts ⟨43 * ((i 0).val / 512) + 42, htN⟩
  have e0 : win1_4.index ⟨43 * ((i 0).val / 512) + 42, htN⟩ 0 = (43 * ((i 0).val / 512) + 42) / 43 := e4_0
  have e1 : win1_4.index ⟨43 * ((i 0).val / 512) + 42, htN⟩ 1 = 0 := e4_1
  intro a
  match a with
  | ⟨0, _⟩ =>
    show win1_4.index ⟨43 * ((i 0).val / 512) + 42, htN⟩ 0 * 512 ≤ (i 0).val
      ∧ (i 0).val < win1_4.index ⟨43 * ((i 0).val / 512) + 42, htN⟩ 0 * 512 + 512
    rw [e0]; omega
  | ⟨1, _⟩ =>
    show win1_4.index ⟨43 * ((i 0).val / 512) + 42, htN⟩ 1 * 4096 ≤ (i 1).val
      ∧ (i 1).val < win1_4.index ⟨43 * ((i 0).val / 512) + 42, htN⟩ 1 * 4096 + 4096
    rw [e1]; omega

/-- THE OUTPUT ARRAY after the region: the second stage of the arrays the region found. -/
theorem arrAt1_4 (c : Dev nD) :
    ((dat1 (F := Ideal) V c).arrAt 4 cfg1.N : S4096x4096.Idx → EReal)
      = Cert.Mlp.down2 (V c main_v18) (V c main_v4) (V c main_v7) (V c main_v13) :=
  (dat1 V c).arrAt_eq_of_cover 4 (Cert.Mlp.down2 (aH V c) (aDW V c) (aDA V c) (aDBT V c)) (fun t hf => flushed_eq V c t hf) cover

end Region

end Cert.KernelIdeal.R1Value
end
-- ==== Proof.Value.HostValue.lean ====
/-
  The host operations around the two regions, read at an index over the extended reals.

  Before the first region the program flattens x : 2 × 2048 × 4096 to 4096 rows of 4096 entries (row-major: row
  2048·b + s of the flattened array is row (b, s) of x), changes the number format of x and of the weights (the
  identity on extended reals), transposes the adapters' second factors (entry (r, h) of the transposed factor is entry
  (h, r) of the argument), and forms the rows' rank-16 projections, the products of the flattened rows with the adapters'
  first factors contracted along both operands' second axis: entry (p, r) is the sum over k of row p at k times the
  factor at (r, k). After the second region one reshape unflattens the 4096 result rows back to 2 × 2048 of them.
  Each fact below first names the buffer's contents as the composed term of the operations that wrote it, then reads
  that term at symbolic coordinates; nothing is evaluated at the arrays' extents.
-/
import proofs.«120860_j26250840113719_2_alg».proof.Proof.Gen.KernelIdeal.Regions
import proofs.«120860_j26250840113719_2_alg».proof.Proof.LibTransDot
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.HostValue

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-! ## The buffers the first stretch of host operations writes, as composed terms of the arguments -/

/-- Format changes only: the contents are the argument's. -/
theorem v2_eq : (Gen.V1 (F := Ideal) m c main_v2 : S11008x4096.Idx → EReal) = m ((c : Thread nD τ).loc main_arg1) := by
  dsimp only [Gen.V1, Gen.hostOps0]
  after_results
  rfl

theorem v3_eq : (Gen.V1 (F := Ideal) m c main_v3 : S11008x4096.Idx → EReal) = m ((c : Thread nD τ).loc main_arg2) := by
  dsimp only [Gen.V1, Gen.hostOps0]
  after_results
  rfl

theorem v4_eq : (Gen.V1 (F := Ideal) m c main_v4 : S4096x11008.Idx → EReal) = m ((c : Thread nD τ).loc main_arg3) := by
  dsimp only [Gen.V1, Gen.hostOps0]
  after_results
  rfl

theorem v5_eq : (Gen.V1 (F := Ideal) m c main_v5 : S16x4096.Idx → EReal) = m ((c : Thread nD τ).loc main_arg4) := by
  dsimp only [Gen.V1, Gen.hostOps0]
  after_results
  rfl

theorem v6_eq : (Gen.V1 (F := Ideal) m c main_v6 : S16x4096.Idx → EReal) = m ((c : Thread nD τ).loc main_arg6) := by
  dsimp only [Gen.V1, Gen.hostOps0]
  after_results
  rfl

theorem v7_eq : (Gen.V1 (F := Ideal) m c main_v7 : S16x11008.Idx → EReal) = m ((c : Thread nD τ).loc main_arg8) := by
  dsimp only [Gen.V1, Gen.hostOps0]
  after_results
  rfl

/-- The flattened rows: the reshape of the first argument, its format changed. -/
theorem v1_eq : (Gen.V1 (F := Ideal) m c main_v1 : S4096x4096.Idx → EReal)
    = shapeCast S4096x4096 (m ((c : Thread nD τ).loc main_arg0) : S2x2048x4096.Idx → EReal) Gen.shapeCasts_S2x2048x4096_S4096x4096 := by
  dsimp only [Gen.V1, Gen.hostOps0]
  after_results
  rfl

/-- Row 2048·b + s of the flattened rows is row (b, s) of the first argument. -/
theorem v1_at (b : Fin 2) (s : Fin 2048) (k : Fin 4096) :
    (Gen.V1 (F := Ideal) m c main_v1 : S4096x4096.Idx → EReal) (ix2 (⟨2048 * b.val + s.val, by omega⟩ : Fin 4096) k)
      = (m ((c : Thread nD τ).loc main_arg0) : S2x2048x4096.Idx → EReal) (ix3 b s k) := by
  rw [v1_eq]
  refine shapeCast_apply (s := S2x2048x4096) (t := S4096x4096) _ _ _ _ ?_
  show (S2x2048x4096.rowMajor (ix3 b s k)).val = (S4096x4096.rowMajor (ix2 (⟨2048 * b.val + s.val, by omega⟩ : Fin 4096) k)).val
  rw [Shape.rowMajor_val_three, Shape.rowMajor_val_two]
  show (b.val * 2048 + s.val) * 4096 + k.val = (2048 * b.val + s.val) * 4096 + k.val
  omega

/-! ## The adapters' second factors, transposed -/

theorem v9_eq : (Gen.V1 (F := Ideal) m c main_v9 : S16x11008.Idx → EReal)
    = transpose S16x11008 [1, 0] (m ((c : Thread nD τ).loc main_arg5) : S11008x16.Idx → EReal) Gen.transposes_S11008x16_S16x11008_1_0 := by
  dsimp only [Gen.V1, Gen.hostOps0]
  after_results
  rfl

theorem v11_eq : (Gen.V1 (F := Ideal) m c main_v11 : S16x11008.Idx → EReal)
    = transpose S16x11008 [1, 0] (m ((c : Thread nD τ).loc main_arg7) : S11008x16.Idx → EReal) Gen.transposes_S11008x16_S16x11008_1_0 := by
  dsimp only [Gen.V1, Gen.hostOps0]
  after_results
  rfl

theorem v13_eq : (Gen.V1 (F := Ideal) m c main_v13 : S16x4096.Idx → EReal)
    = transpose S16x4096 [1, 0] (m ((c : Thread nD τ).loc main_arg9) : S4096x16.Idx → EReal) Gen.transposes_S4096x16_S16x4096_1_0 := by
  dsimp only [Gen.V1, Gen.hostOps0]
  after_results
  rfl

/-- Entry (r, h) of the transposed factor is entry (h, r) of the argument. -/
theorem v9_at (r : Fin 16) (h : Fin 11008) :
    (Gen.V1 (F := Ideal) m c main_v9 : S16x11008.Idx → EReal) (ix2 r h)
      = (m ((c : Thread nD τ).loc main_arg5) : S11008x16.Idx → EReal) (ix2 h r) := by
  rw [v9_eq]
  exact transpose_ix2_apply _ _ r h

theorem v11_at (r : Fin 16) (h : Fin 11008) :
    (Gen.V1 (F := Ideal) m c main_v11 : S16x11008.Idx → EReal) (ix2 r h)
      = (m ((c : Thread nD τ).loc main_arg7) : S11008x16.Idx → EReal) (ix2 h r) := by
  rw [v11_eq]
  exact transpose_ix2_apply _ _ r h

theorem v13_at (r : Fin 16) (d : Fin 4096) :
    (Gen.V1 (F := Ideal) m c main_v13 : S16x4096.Idx → EReal) (ix2 r d)
      = (m ((c : Thread nD τ).loc main_arg9) : S4096x16.Idx → EReal) (ix2 d r) := by
  rw [v13_eq]
  exact transpose_ix2_apply _ _ r d

/-! ## The rows' rank-16 projections: the host products of the flattened rows with the adapters' first factors -/

theorem v15_eq : (Gen.V1 (F := Ideal) m c main_v15 : S4096x16.Idx → EReal)
    = FloatOps.dotGeneral (F := Ideal) (φ₁ := .bf16) (φ₂ := .bf16) (DotDims.transposedRhs 4096 4096 16) none .single
        (Gen.V1 (F := Ideal) m c main_v1 : S4096x4096.Idx → EReal) (m ((c : Thread nD τ).loc main_arg4) : S16x4096.Idx → EReal) := by
  rw [v1_eq]
  dsimp only [Gen.V1, Gen.hostOps0]
  after_results
  rfl

theorem v17_eq : (Gen.V1 (F := Ideal) m c main_v17 : S4096x16.Idx → EReal)
    = FloatOps.dotGeneral (F := Ideal) (φ₁ := .bf16) (φ₂ := .bf16) (DotDims.transposedRhs 4096 4096 16) none .single
        (Gen.V1 (F := Ideal) m c main_v1 : S4096x4096.Idx → EReal) (m ((c : Thread nD τ).loc main_arg6) : S16x4096.Idx → EReal) := by
  rw [v1_eq]
  dsimp only [Gen.V1, Gen.hostOps0]
  after_results
  rfl

/-- Entry (p, r) of the first projection: row p of the flattened rows against row r of the first factor. The two arrays
    are named by variables so that the sum is stated over the extended reals. -/
theorem v15_at_of (X : S4096x4096.Idx → EReal) (A : S16x4096.Idx → EReal)
    (hX : X = (Gen.V1 (F := Ideal) m c main_v1 : S4096x4096.Idx → EReal))
    (hA : A = (m ((c : Thread nD τ).loc main_arg4) : S16x4096.Idx → EReal)) (p : Fin 4096) (r : Fin 16) :
    (Gen.V1 (F := Ideal) m c main_v15 : S4096x16.Idx → EReal) (ix2 p r) = ∑ k : Fin 4096, X (ix2 p k) * A (ix2 r k) := by
  subst hX hA
  rw [v15_eq]
  exact TransDot.dotGeneral_apply none .single _ _ p r

theorem v17_at_of (X : S4096x4096.Idx → EReal) (A : S16x4096.Idx → EReal)
    (hX : X = (Gen.V1 (F := Ideal) m c main_v1 : S4096x4096.Idx → EReal))
    (hA : A = (m ((c : Thread nD τ).loc main_arg6) : S16x4096.Idx → EReal)) (p : Fin 4096) (r : Fin 16) :
    (Gen.V1 (F := Ideal) m c main_v17 : S4096x16.Idx → EReal) (ix2 p r) = ∑ k : Fin 4096, X (ix2 p k) * A (ix2 r k) := by
  subst hX hA
  rw [v17_eq]
  exact TransDot.dotGeneral_apply none .single _ _ p r

theorem v15_at (p : Fin 4096) (r : Fin 16) :
    (Gen.V1 (F := Ideal) m c main_v15 : S4096x16.Idx → EReal) (ix2 p r)
      = Finset.sum (M := EReal) Finset.univ fun k : Fin 4096 =>
          HMul.hMul (α := EReal) (β := EReal) (γ := EReal)
            ((Gen.V1 (F := Ideal) m c main_v1 : S4096x4096.Idx → EReal) (ix2 p k))
            ((m ((c : Thread nD τ).loc main_arg4) : S16x4096.Idx → EReal) (ix2 r k)) :=
  v15_at_of m c _ _ rfl rfl p r

theorem v17_at (p : Fin 4096) (r : Fin 16) :
    (Gen.V1 (F := Ideal) m c main_v17 : S4096x16.Idx → EReal) (ix2 p r)
      = Finset.sum (M := EReal) Finset.univ fun k : Fin 4096 =>
          HMul.hMul (α := EReal) (β := EReal) (γ := EReal)
            ((Gen.V1 (F := Ideal) m c main_v1 : S4096x4096.Idx → EReal) (ix2 p k))
            ((m ((c : Thread nD τ).loc main_arg6) : S16x4096.Idx → EReal) (ix2 r k)) :=
  v17_at_of m c _ _ rfl rfl p r

/-! ## The last host operation: the result's rows unflattened -/

/-- Row (b, s) of the result is row 2048·b + s of the second region's output. -/
theorem v20_at (U : Valuation τ sig (Elt Ideal)) (b : Fin 2) (s : Fin 2048) (d : Fin 4096) :
    ((StableHlo.after (Gen.hostOps2 (F := Ideal)) U) main_v20 : S2x2048x4096.Idx → EReal) (ix3 b s d)
      = (U main_v19 : S4096x4096.Idx → EReal) (ix2 (⟨2048 * b.val + s.val, by omega⟩ : Fin 4096) d) := by
  have e : ((StableHlo.after (Gen.hostOps2 (F := Ideal)) U) main_v20 : S2x2048x4096.Idx → EReal)
      = shapeCast S2x2048x4096 (U main_v19 : S4096x4096.Idx → EReal) Gen.shapeCasts_S4096x4096_S2x2048x4096 := by
    dsimp only [Gen.hostOps2]
    after_results
    rfl
  rw [e]
  refine shapeCast_apply (s := S4096x4096) (t := S2x2048x4096) _ _ _ _ ?_
  show (S4096x4096.rowMajor (ix2 (⟨2048 * b.val + s.val, by omega⟩ : Fin 4096) d)).val = (S2x2048x4096.rowMajor (ix3 b s d)).val
  rw [Shape.rowMajor_val_three, Shape.rowMajor_val_two]
  show (2048 * b.val + s.val) * 4096 + d.val = (b.val * 2048 + s.val) * 4096 + d.val
  omega

end Cert.KernelIdeal.HostValue

end
-- ==== Proof.Value.Compose.lean ====
/-
  The two stages, composed, are the block.

  With the rows' rank-16 projections xa(m, r) = Σ_k x2(m,k) · ga(r,k) (and xu likewise) and the adapters' second factors laid
  out transposed, the down stage applied to the hidden stage is, at row m, the whole gated block applied to row m of x2:
  nothing but substituting the definitions — no law of arithmetic is used.
-/
import proofs.«120860_j26250840113719_2_alg».proof.Proof.Spec

noncomputable section

open scoped BigOperators

namespace Cert.Mlp

open Idealize.ShloMosaic Idealize.ShloMosaic.ValueIdx

theorem down2_hidden2 (x2 : Amk) (gw uw : Ahk) (dw : Akh) (ga ua : Ark) (gb ub : Ahr) (da : Arh) (db : Akr)
    (xa xu : Amr) (gbT ubT : Arh) (dbT : Ark)
    (hxa : ∀ (p : Fin 4096) (r : Fin 16), xa (ix2 p r) = ∑ k : Fin 4096, x2 (ix2 p k) * ga (ix2 r k))
    (hxu : ∀ (p : Fin 4096) (r : Fin 16), xu (ix2 p r) = ∑ k : Fin 4096, x2 (ix2 p k) * ua (ix2 r k))
    (hgb : ∀ (r : Fin 16) (h : Fin 11008), gbT (ix2 r h) = gb (ix2 h r))
    (hub : ∀ (r : Fin 16) (h : Fin 11008), ubT (ix2 r h) = ub (ix2 h r))
    (hdb : ∀ (r : Fin 16) (d : Fin 4096), dbT (ix2 r d) = db (ix2 d r))
    (p d : Fin 4096) :
    down2 (hidden2 x2 gw uw xa xu gbT ubT) dw da dbT (ix2 p d)
      = blockRow (at2 gw) (at2 uw) (at2 dw) (at2 ga) (at2 ua) (at2 gb) (at2 ub) (at2 da) (at2 db) (fun k => x2 (ix2 p k)) d := by
  rw [down2_apply]
  simp only [hidden2_apply, hxa, hxu, hgb, hub, hdb]
  rfl

end Cert.Mlp

end
-- ==== Proof.Value.KernelValue.lean ====
/-
  The kernel program's result, over the extended reals, is the specification's function G of its ten argument arrays.

  The returned buffer is the reshape of the second region's output rows: entry (b, s, d) is entry (2048·b + s, d) of the
  4096 × 4096 result rows. Those rows are the down stage of the hidden matrix, the down weight, the down adapter's first
  factor and its transposed second factor; the hidden matrix is what the first region left, the hidden stage of the
  flattened rows, the gate and up weights, the rows' two rank-16 projections and the two transposed second factors. The
  weights and first factors are the arguments themselves (a change of number format is the identity here), the transposed
  factors are the arguments read at swapped coordinates, the projections are the sums over k of the flattened row times
  the first factor's row, and row 2048·b + s of the flattened rows is row (b, s) of x. With these, the two stages composed
  are the block applied to row (b, s) of x, which is G at (b, s, d).
-/
import proofs.«120860_j26250840113719_2_alg».proof.Proof.KernelIdeal.Run
import proofs.«120860_j26250840113719_2_alg».proof.Proof.Value.R0Value
import proofs.«120860_j26250840113719_2_alg».proof.Proof.Value.R1Value
import proofs.«120860_j26250840113719_2_alg».proof.Proof.Value.HostValue
import proofs.«120860_j26250840113719_2_alg».proof.Proof.Value.Compose
import proofs.«120860_j26250840113719_2_alg».proof.Proof.Spec

noncomputable section

open scoped BigOperators

namespace Cert.KernelIdeal.KernelValue

open Cert.KernelIdeal
open Idealize.ShloMosaic Idealize.ShloMosaic.TcCoe Idealize.ShloMosaic.ValueIdx Idealize.SL.Sem

/-! ## The stitch, over arrays named by variables -/

/-- Row (b, s) of a 2 × 2048 stack of rows, in the flattened numbering. -/
abbrev flatRow (b : Fin 2) (s : Fin 2048) : Fin 4096 := ⟨2048 * b.val + s.val, by omega⟩

open Cert.Mlp in
/-- If `out` is the unflattening of `rows`, `rows` the two stages composed on the flattened rows `x2` of `x` with the
    projections `xa`, `xu` of those rows and the second factors transposed, then `out` is G: at (b, s, d) both are the
    block applied to row (b, s) of x. -/
theorem stitch (x : A3) (gw uw : Ahk) (dw : Akh) (ga : Ark) (gb : Ahr) (ua : Ark) (ub : Ahr) (da : Arh) (db : Akr)
    (x2 : Amk) (xa xu : Amr) (gbT ubT : Arh) (dbT : Ark) (rows : Amk) (out : A3)
    (hout : ∀ (b : Fin 2) (s : Fin 2048) (d : Fin 4096), out (ix3 b s d) = rows (ix2 (flatRow b s) d))
    (hrows : rows = down2 (hidden2 x2 gw uw xa xu gbT ubT) dw da dbT)
    (hx : ∀ (b : Fin 2) (s : Fin 2048) (k : Fin 4096), x2 (ix2 (flatRow b s) k) = x (ix3 b s k))
    (hxa : ∀ (p : Fin 4096) (r : Fin 16), xa (ix2 p r) = ∑ k : Fin 4096, x2 (ix2 p k) * ga (ix2 r k))
    (hxu : ∀ (p : Fin 4096) (r : Fin 16), xu (ix2 p r) = ∑ k : Fin 4096, x2 (ix2 p k) * ua (ix2 r k))
    (hgb : ∀ (r : Fin 16) (h : Fin 11008), gbT (ix2 r h) = gb (ix2 h r))
    (hub : ∀ (r : Fin 16) (h : Fin 11008), ubT (ix2 r h) = ub (ix2 h r))
    (hdb : ∀ (r : Fin 16) (d : Fin 4096), dbT (ix2 r d) = db (ix2 d r)) :
    out = G x gw uw dw ga gb ua ub da db := by
  funext i
  obtain ⟨b, s, d, rfl⟩ : ∃ (b : Fin 2) (s : Fin 2048) (d : Fin 4096), i = ix3 b s d := ⟨i 0, i 1, i 2, eq_ix3 i⟩
  rw [hout b s d, hrows, down2_hidden2 x2 gw uw dw ga ua gb ub da db xa xu gbT ubT dbT hxa hxu hgb hub hdb (flatRow b s) d,
    G_apply, show (fun k : Fin 4096 => x2 (ix2 (flatRow b s) k)) = fun k : Fin 4096 => x (ix3 b s k) from funext (hx b s)]

variable (m : (ℓ : Loc nD τ sig) → Buf (Elt Ideal) ℓ) (ρ : Dev nD → PrngReg) (c : Dev nD)

/-! ## What the regions' operands hold when the regions are entered -/

/-- The hidden matrix as the second region finds it: the hidden stage of the flattened rows, the gate and up weights,
    the two projections and the two transposed second factors, each as the first host stretch left it. -/
theorem hidden_eq :
    (Cert.KernelIdeal.Whole.V2 (F := Ideal) m ρ c main_v18 : S4096x11008.Idx → EReal)
      = Cert.Mlp.hidden2 (Cert.KernelIdeal.Whole.W1 (F := Ideal) m ρ c (Proc.devRef .tc main_v1)) (Cert.KernelIdeal.Whole.W1 (F := Ideal) m ρ c (Proc.devRef .tc main_v2)) (Cert.KernelIdeal.Whole.W1 (F := Ideal) m ρ c (Proc.devRef .tc main_v3)) (Cert.KernelIdeal.Whole.W1 (F := Ideal) m ρ c (Proc.devRef .tc main_v15)) (Cert.KernelIdeal.Whole.W1 (F := Ideal) m ρ c (Proc.devRef .tc main_v17)) (Cert.KernelIdeal.Whole.W1 (F := Ideal) m ρ c (Proc.devRef .tc main_v9)) (Cert.KernelIdeal.Whole.W1 (F := Ideal) m ρ c (Proc.devRef .tc main_v11)) :=
  (Cert.KernelIdeal.Whole.W2_v18 m ρ c).trans (Cert.KernelIdeal.R0Value.arrAt0_7 (Cert.KernelIdeal.Whole.V1 m ρ) c)

/-- The result rows as the last host operation finds them: the down stage of that hidden matrix, the down weight and
    the down adapter's factors, each as the first host stretch left it (the first region changes none of them). -/
theorem rows_eq :
    (Cert.KernelIdeal.Whole.W3 (F := Ideal) m ρ c (Proc.devRef .tc main_v19) : S4096x4096.Idx → EReal)
      = Cert.Mlp.down2
          (Cert.Mlp.hidden2 (Cert.KernelIdeal.Whole.W1 (F := Ideal) m ρ c (Proc.devRef .tc main_v1)) (Cert.KernelIdeal.Whole.W1 (F := Ideal) m ρ c (Proc.devRef .tc main_v2)) (Cert.KernelIdeal.Whole.W1 (F := Ideal) m ρ c (Proc.devRef .tc main_v3)) (Cert.KernelIdeal.Whole.W1 (F := Ideal) m ρ c (Proc.devRef .tc main_v15)) (Cert.KernelIdeal.Whole.W1 (F := Ideal) m ρ c (Proc.devRef .tc main_v17)) (Cert.KernelIdeal.Whole.W1 (F := Ideal) m ρ c (Proc.devRef .tc main_v9)) (Cert.KernelIdeal.Whole.W1 (F := Ideal) m ρ c (Proc.devRef .tc main_v11)))
          (Cert.KernelIdeal.Whole.W1 (F := Ideal) m ρ c (Proc.devRef .tc main_v4)) (Cert.KernelIdeal.Whole.W1 (F := Ideal) m ρ c (Proc.devRef .tc main_v7)) (Cert.KernelIdeal.Whole.W1 (F := Ideal) m ρ c (Proc.devRef .tc main_v13)) := by
  have e4 : Cert.KernelIdeal.Whole.V2 (F := Ideal) m ρ c main_v4 = (Cert.KernelIdeal.Whole.W1 (F := Ideal) m ρ c (Proc.devRef .tc main_v4)) := Cert.KernelIdeal.Whole.W2_of_ne m ρ c main_v4 (by decide)
  have e7 : Cert.KernelIdeal.Whole.V2 (F := Ideal) m ρ c main_v7 = (Cert.KernelIdeal.Whole.W1 (F := Ideal) m ρ c (Proc.devRef .tc main_v7)) := Cert.KernelIdeal.Whole.W2_of_ne m ρ c main_v7 (by decide)
  have e13 : Cert.KernelIdeal.Whole.V2 (F := Ideal) m ρ c main_v13 = (Cert.KernelIdeal.Whole.W1 (F := Ideal) m ρ c (Proc.devRef .tc main_v13)) := Cert.KernelIdeal.Whole.W2_of_ne m ρ c main_v13 (by decide)
  have e : (Cert.KernelIdeal.Whole.W3 (F := Ideal) m ρ c (Proc.devRef .tc main_v19) : S4096x4096.Idx → EReal)
      = Cert.Mlp.down2 (Cert.KernelIdeal.Whole.V2 (F := Ideal) m ρ c main_v18) (Cert.KernelIdeal.Whole.V2 (F := Ideal) m ρ c main_v4)
          (Cert.KernelIdeal.Whole.V2 (F := Ideal) m ρ c main_v7) (Cert.KernelIdeal.Whole.V2 (F := Ideal) m ρ c main_v13) :=
    (Cert.KernelIdeal.Whole.W3_v19 m ρ c).trans (Cert.KernelIdeal.R1Value.arrAt1_4 (Cert.KernelIdeal.Whole.V2 m ρ) c)
  rw [e, hidden_eq m ρ c, e4, e7, e13]

/-! ## The result -/

/-- THE KERNEL'S VALUE: the returned buffer's last contents are G of the ten arguments. The weights and first factors
    are replaced by the arguments they are format changes of; the other facts are the host operations read at an index. -/
theorem kernel_value :
    (Cert.KernelIdeal.Whole.W4 (F := Ideal) m ρ c (Proc.devRef .tc main_v20) : S2x2048x4096.Idx → EReal)
      = Cert.Mlp.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h2 : ((Cert.KernelIdeal.Whole.W1 (F := Ideal) m ρ c (Proc.devRef .tc main_v2)) : S11008x4096.Idx → EReal) = (m ((c.tc : Thread nD τ).loc main_arg1)) := Cert.KernelIdeal.HostValue.v2_eq m c
  have h3 : ((Cert.KernelIdeal.Whole.W1 (F := Ideal) m ρ c (Proc.devRef .tc main_v3)) : S11008x4096.Idx → EReal) = (m ((c.tc : Thread nD τ).loc main_arg2)) := Cert.KernelIdeal.HostValue.v3_eq m c
  have h4 : ((Cert.KernelIdeal.Whole.W1 (F := Ideal) m ρ c (Proc.devRef .tc main_v4)) : S4096x11008.Idx → EReal) = (m ((c.tc : Thread nD τ).loc main_arg3)) := Cert.KernelIdeal.HostValue.v4_eq m c
  have h7 : ((Cert.KernelIdeal.Whole.W1 (F := Ideal) m ρ c (Proc.devRef .tc main_v7)) : S16x11008.Idx → EReal) = (m ((c.tc : Thread nD τ).loc main_arg8)) := Cert.KernelIdeal.HostValue.v7_eq m c
  have hr := rows_eq m ρ c
  rw [h2, h3, h4, h7] at hr
  exact stitch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (Cert.KernelIdeal.Whole.W1 (F := Ideal) m ρ c (Proc.devRef .tc main_v1)) (Cert.KernelIdeal.Whole.W1 (F := Ideal) m ρ c (Proc.devRef .tc main_v15)) (Cert.KernelIdeal.Whole.W1 (F := Ideal) m ρ c (Proc.devRef .tc main_v17)) (Cert.KernelIdeal.Whole.W1 (F := Ideal) m ρ c (Proc.devRef .tc main_v9)) (Cert.KernelIdeal.Whole.W1 (F := Ideal) m ρ c (Proc.devRef .tc main_v11)) (Cert.KernelIdeal.Whole.W1 (F := Ideal) m ρ c (Proc.devRef .tc main_v13))
    (Cert.KernelIdeal.Whole.W3 (F := Ideal) m ρ c (Proc.devRef .tc main_v19))
    (Cert.KernelIdeal.Whole.W4 (F := Ideal) m ρ c (Proc.devRef .tc main_v20))
    (fun b s d => Cert.KernelIdeal.HostValue.v20_at (Cert.KernelIdeal.Whole.W3 m ρ c) b s d)
    hr
    (fun b s k => Cert.KernelIdeal.HostValue.v1_at m c b s k)
    (Cert.KernelIdeal.HostValue.v15_at m c) (Cert.KernelIdeal.HostValue.v17_at m c)
    (Cert.KernelIdeal.HostValue.v9_at m c) (Cert.KernelIdeal.HostValue.v11_at m c) (Cert.KernelIdeal.HostValue.v13_at m c)

/-- THE KERNEL'S RUN with its value: every execution terminates, the returned buffer holds G of the arguments, and the
    arguments are as launched. -/
theorem run_value : θ_run defs (onTc (τ := τ) (main (F := Ideal))) ⟨m, fun _ => 0, ρ⟩ (fun r => ∀ c : Dev nD,
      r.2.mem ((c.tc : Thread nD τ).loc main_v20) = Cert.Mlp.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (kernel_value m ρ c), (h c).2⟩) (Cert.KernelIdeal.Whole.run_v20 (F := Ideal) m ρ)

end Cert.KernelIdeal.KernelValue

end
-- ==== Proof.lean ====
/-
  A gated feed-forward block with low-rank adapters, computed by a tiled kernel and by plain array operations, gives
  one result over the extended reals.

  Both programs compute, for each of the 2 × 2048 rows x of the input, the row
      d ↦ Σ_h hid(h) · W_d(d,h) + Σ_r (Σ_h hid(h) · A_d(r,h)) · B_d(d,r),
      hid(h) = g(h) · σ(g(h)) · u(h),   g and u the two adapted layers Σ_k x(k) · W(h,k) + Σ_r (Σ_k x(k) · A(r,k)) · B(h,r).
  The kernel flattens the rows, takes the rank-16 projections and the transposed second factors on the host, forms the
  hidden matrix in one region (a 43 × 8 grid of 512 × 256 blocks) and the result in a second (an 8 × 43 grid: each
  512 × 4096 block accumulated over the 43 hidden tiles, the rank-16 part accumulated beside it and added at the last
  tile), and restores the shape. The reference applies the same formulas to the three-dimensional arrays, scaling each
  adapter term by one. The two agree because + and · on the extended reals are commutative and associative, a sum over
  11008 = 43 · 256 positions is the sum of its 43 tile sums, 0 + a = a and a · 1 = a; no entry is assumed finite. The
  logistic factor is one function in both programs.
-/
import proofs.«120860_j26250840113719_2_alg».proof.Defs
import proofs.«120860_j26250840113719_2_alg».proof.Proof.Gen.Kernel
import proofs.«120860_j26250840113719_2_alg».proof.Proof.Gen.KernelIdeal
import proofs.«120860_j26250840113719_2_alg».proof.Proof.Gen.ReferenceIdeal
import proofs.«120860_j26250840113719_2_alg».proof.Proof.Gen.Pre_finite_inputs
import proofs.«120860_j26250840113719_2_alg».proof.Proof.Kernel.Run
import proofs.«120860_j26250840113719_2_alg».proof.Proof.KernelIdeal.Run
import proofs.«120860_j26250840113719_2_alg».proof.Proof.Value.RefValue
import proofs.«120860_j26250840113719_2_alg».proof.Proof.Value.KernelValue
import Idealize.ShloMosaic.Adequacy
import Idealize.ShloMosaic.Init

noncomputable section

namespace Cert.Proof

open Idealize.ShloMosaic Idealize.SL.Sem

/-- The word-level program runs to the end, faults nowhere and leaves its arguments as launched. -/
theorem frame_p : Cert.frame_Kernel := fun m ρ _ => Cert.Kernel.Whole.frame m ρ

/-- So does its idealization. -/
theorem frame_pi : Cert.frame_KernelIdeal := fun m ρ _ => Cert.KernelIdeal.Whole.frame m ρ

/-- So does the reference: its run with the result dropped. -/
theorem frame_ri : Cert.frame_ReferenceIdeal := fun m ρ _ => Cert.ReferenceIdeal.RefValue.frame_ri_run m ρ

/-- The idealization rewrote no operation. -/
theorem preserves : Cert.preserves_Kernel_KernelIdeal := trivial

/-- From memories agreeing on the ten arguments both idealized programs end with the result array at the gated block of
    the arguments, entry by entry: the kernel's by reading its two regions' write-backs, the reference's by reading its
    operations one at a time. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.KernelValue.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_eq m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
